-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v20) = v3 c
          ∧ r.2.mem ((c.tc : Thread Cert.ReferenceIdeal.nD Cert.ReferenceIdeal.τ).loc Cert.ReferenceIdeal.main_v27) = v4 c
          ∧ r.2.mem ((c.tc : Thread Cert.ReferenceIdeal.nD Cert.ReferenceIdeal.τ).loc Cert.ReferenceIdeal.main_v33) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S8192x2048 : Shape := ⟨2, ![8192, 2048]⟩
abbrev S8192 : Shape := ⟨1, ![8192]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S8192x2048 .f32) (main_arg6 : FVec F S8192 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S2048x2048 .f32) (main_arg1 : FVec F S2048x2048 .f32) (main_arg2 : FVec F S2048x2048 .f32) (main_arg3 : FVec F S8192x2048 .f32) (main_arg4 : FVec F S8192 .f32) (main_arg5 : FVec F S8192x2048 .f32) (main_arg6 : FVec F S8192 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_v13 main_v16
-- ==== Kernel.lean ====
abbrev S2048x2048 : Shape := ⟨2, ![2048, 2048]⟩
abbrev S8192x2048 : Shape := ⟨2, ![8192, 2048]⟩
abbrev S8192 : Shape := ⟨1, ![8192]⟩
abbrev S2048x8192 : Shape := ⟨2, ![2048, 8192]⟩
abbrev S1x8192 : Shape := ⟨2, ![1, 8192]⟩
abbrev S256x256 : Shape := ⟨2, ![256, 256]⟩
abbrev S256x8192 : Shape := ⟨2, ![256, 8192]⟩
abbrev S256x2048 : Shape := ⟨2, ![256, 2048]⟩

abbrev nBuf : Space → Nat
  | .hbm => 21
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S8192x2048, .f32⟩
  | .hbm, ⟨4, _⟩ => ⟨S8192, .f32⟩
  | .hbm, ⟨5, _⟩ => ⟨S8192x2048, .f32⟩
  | .hbm, ⟨6, _⟩ => ⟨S8192, .f32⟩
  | .hbm, ⟨7, _⟩ => ⟨S2048x2048, .bf16⟩
  | .hbm, ⟨8, _⟩ => ⟨S2048x2048, .bf16⟩
  | .hbm, ⟨9, _⟩ => ⟨S8192x2048, .bf16⟩
  | .hbm, ⟨10, _⟩ => ⟨S2048x8192, .bf16⟩
  | .hbm, ⟨11, _⟩ => ⟨S8192x2048, .bf16⟩
  | .hbm, ⟨12, _⟩ => ⟨S2048x8192, .bf16⟩
  | .hbm, ⟨13, _⟩ => ⟨S1x8192, .f32⟩
  | .hbm, ⟨14, _⟩ => ⟨S1x8192, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x8192, .bf16⟩
  | .local _ .vmem, ⟨5, _⟩ => ⟨S256x8192, .bf16⟩
  | .local _ .vmem, ⟨6, _⟩ => ⟨S256x8192, .bf16⟩
  | .local _ .vmem, ⟨7, _⟩ => ⟨S256x8192, .bf16⟩
  | .local _ .vmem, ⟨8, _⟩ => ⟨S1x8192, .f32⟩
  | .local _ .vmem, ⟨9, _⟩ => ⟨S1x8192, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x8192, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S256x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S256x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

class Facts₀ : Prop where
  bitsLt_bf16_f32 : FTy.bits .bf16 < FTy.bits .f32
  transposes_S8192x2048_S2048x8192_1_0 : S8192x2048.Transposes [1, 0] S2048x8192
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S256x8192_o0_0_S256x2048 : S256x8192.Slices ![0, 0] S256x2048
  slices_S256x8192_o0_2048_S256x2048 : S256x8192.Slices ![0, 2048] S256x2048
  slices_S256x8192_o0_4096_S256x2048 : S256x8192.Slices ![0, 4096] S256x2048
  slices_S256x8192_o0_6144_S256x2048 : S256x8192.Slices ![0, 6144] S256x2048
  inb_S256x2048_S256x2048_0_0 : ∀ a, (![0, 0] : Fin 2 → Nat) a + S256x2048.size a ≤ S256x2048.size a
  h_S256x2048 : 0 < S256x2048.numel
  dot_S256x256_S256x8192_S256x8192_1_0_0_1_n_n_wf : DotDims.WF S256x256 S256x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S2048x2048.size a
  hwx0_0 : ∀ i : grid0.Coords, EltTy.bits .bf16 = 32 ∨ (Rect.block (s := S2048x2048) S256x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S2048x2048.size a
  hwx0_1 : ∀ i : grid0.Coords, EltTy.bits .bf16 = 32 ∨ (Rect.block (s := S2048x2048) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S2048x8192.size a
  hwx0_2 : ∀ i : grid0.Coords, EltTy.bits .bf16 = 32 ∨ (Rect.block (s := S2048x8192) S256x8192.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S2048x8192.size a
  hwx0_3 : ∀ i : grid0.Coords, EltTy.bits .bf16 = 32 ∨ (Rect.block (s := S2048x8192) S256x8192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8192.size a
  hwx0_4 : ∀ i : grid0.Coords, EltTy.bits .f32 = 32 ∨ (Rect.block (s := S1x8192) S1x8192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x8192.size a
  hwx0_5 : ∀ i : grid0.Coords, EltTy.bits .f32 = 32 ∨ (Rect.block (s := S1x8192) S1x8192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S2048x2048.size a
  hwx0_6 : ∀ i : grid0.Coords, EltTy.bits .f32 = 32 ∨ (Rect.block (s := S2048x2048) S256x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S2048x2048.size a
  hwx0_7 : ∀ i : grid0.Coords, EltTy.bits .f32 = 32 ∨ (Rect.block (s := S2048x2048) S256x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S2048x2048.size a
  hwx0_8 : ∀ i : grid0.Coords, EltTy.bits .f32 = 32 ∨ (Rect.block (s := S2048x2048) S256x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S2048x2048.size a
  hwx0_9 : ∀ i : grid0.Coords, EltTy.bits .f32 = 32 ∨ (Rect.block (s := S2048x2048) S256x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x2048.size a ≤ S2048x2048.size a
  hwx0_10 : ∀ i : grid0.Coords, EltTy.bits .f32 = 32 ∨ (Rect.block (s := S2048x2048) S256x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x2048.size a ≤ S2048x2048.size a
  hwx0_11 : ∀ i : grid0.Coords, EltTy.bits .f32 = 32 ∨ (Rect.block (s := S2048x2048) S256x2048.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x2048.size a ≤ S2048x2048.size a
  hwx0_12 : ∀ i : grid0.Coords, EltTy.bits .f32 = 32 ∨ (Rect.block (s := S2048x2048) S256x2048.size (cc0_transform_12 i) (hinb0_12 i)).WholeWords (EltTy.packing .f32)

variable [Facts₀]

def dot_S256x256_S256x8192_S256x8192_1_0_0_1_n_n : DotDims S256x256 S256x8192 S256x8192 where
  lhsContracting := [1]
  rhsContracting := [0]
  lhsNonContracting := [0]
  rhsNonContracting := [1]
  lhsBatch := []
  rhsBatch := []
  wf := dot_S256x256_S256x8192_S256x8192_1_0_0_1_n_n_wf

abbrev win0_0 : Pipeline.Window sig grid0 :=
  Pipeline.Window.ofSpec (Memref.whole main_v0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S256x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S256x2048.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S256x2048.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8_2) S256x2048.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8_3) S256x2048.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8_4) S256x2048.size cc0_transform_11 reads0_11 true true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8_5) S256x2048.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | 9 => fun i => !(k0_cond2 i == 1#1) | 10 => fun i => !(k0_cond2 i == 1#1) | 11 => fun i => !(k0_cond2 i == 1#1) | 12 => fun i => !(k0_cond2 i == 1#1) | ⟨_ + 13, h⟩ => absurd h (Nat.not_lt.2 (Nat.le_add_left _ _))

class Facts : Prop extends Facts₀ where

variable [Facts]
-- ==== ReferenceIdeal.lean ====
abbrev S2048x2048 : Shape := ⟨2, ![2048, 2048]⟩
abbrev S8192x2048 : Shape := ⟨2, ![8192, 2048]⟩
abbrev S8192 : Shape := ⟨1, ![8192]⟩
abbrev S2048x8192 : Shape := ⟨2, ![2048, 8192]⟩
abbrev S1x8192 : Shape := ⟨2, ![1, 8192]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S8192x2048, .f32⟩
  | .hbm, ⟨4, _⟩ => ⟨S8192, .f32⟩
  | .hbm, ⟨5, _⟩ => ⟨S8192x2048, .f32⟩
  | .hbm, ⟨6, _⟩ => ⟨S8192, .f32⟩
  | .hbm, ⟨7, _⟩ => ⟨S2048x8192, .f32⟩
  | .hbm, ⟨8, _⟩ => ⟨S2048x8192, .f32⟩
  | .hbm, ⟨9, _⟩ => ⟨S1x8192, .f32⟩
  | .hbm, ⟨10, _⟩ => ⟨S2048x8192, .f32⟩
  | .hbm, ⟨11, _⟩ => ⟨S2048x8192, .f32⟩
  | .hbm, ⟨12, _⟩ => ⟨S2048x8192, .f32⟩
  | .hbm, ⟨13, _⟩ => ⟨S2048x8192, .f32⟩
  | .hbm, ⟨14, _⟩ => ⟨S2048x8192, .f32⟩
  | .hbm, ⟨15, _⟩ => ⟨S1x8192, .f32⟩
  | .hbm, ⟨16, _⟩ => ⟨S2048x8192, .f32⟩
  | .hbm, ⟨17, _⟩ => ⟨S2048x8192, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S8192_S1x8192_1 : S8192.BroadcastsInDim S1x8192 (![1] : Fin 1 → Fin S1x8192.rank)
  bcast_S1x8192_S2048x8192_0_1 : S1x8192.BroadcastsInDim S2048x8192 (![0, 1] : Fin 2 → Fin S2048x8192.rank)
  slices_S2048x8192_S2048x2048_0_0 : S2048x8192.Slices ![0, 0] S2048x2048
  slices_S2048x8192_S2048x2048_0_2048 : S2048x8192.Slices ![0, 2048] S2048x2048
  slices_S2048x8192_S2048x2048_0_4096 : S2048x8192.Slices ![0, 4096] S2048x2048
  slices_S2048x8192_S2048x2048_0_6144 : S2048x8192.Slices ![0, 6144] S2048x2048
  bcast_S_S2048x2048 : S_.BroadcastsInDim S2048x2048 (![] : Fin 0 → Fin S2048x2048.rank)
  dot_S2048x2048_S2048x8192_S2048x8192_1_0_0_1_n_n_wf : DotDims.WF S2048x2048 S2048x8192 S2048x8192 [1] [0] [0] [1] [] []

variable [Facts₀]

def dot_S2048x2048_S2048x8192_S2048x8192_1_0_0_1_n_n : DotDims S2048x2048 S2048x8192 S2048x8192 where
  lhsContracting := [1]
  rhsContracting := [0]
  lhsNonContracting := [0]
  rhsNonContracting := [1]
  lhsBatch := []
  rhsBatch := []
  wf := dot_S2048x2048_S2048x8192_S2048x8192_1_0_0_1_n_n_wf

class Facts : Prop extends Facts₀ where

variable [Facts]
-- ==== Proof.Found.lean ====
/-
  What one run of the body leaves in the running block and in the six output blocks, as values of the blocks it was
  given.

  The running block of 256 rows by 8192 gate columns is carried from one contraction step to the next.  At the first
  step of a batch tile the body resets it to the bias rows and then adds the step's partial products; at every later
  step it adds the step's partial products to what the step before left; at the last step it moreover reads the block
  it has just completed and stores the six results computed from it and from the block of the previous cell state.
-/
import proofs.«157634_j49675591746256_2_alg».proof.Proof.Gen.KernelIdeal.Frame
import Idealize.ShloMosaic.Lib.Pipeline.Value
import Idealize.ShloMosaic.Lib.Tactic

set_option maxRecDepth 16384

noncomputable section

namespace Cert.KernelIdeal.Found

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The running block after the first step of a batch tile: the bias rows plus the step's partial products. -/
theorem after_first (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x8192 .bf16) (harg4 : arg4.IsWhole) (arg5 : Memref sig .tc .vmem S256x8192 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x8192 .f32) (harg15 : arg15.IsWhole) (hc0 : cond0_0 i) (hc1 : ¬cond0_1 i)
    (x0 : Vec F S256x256 .bf16) (x1 : Vec F S256x256 .bf16) (x2 : Vec F S256x8192 .bf16) (x3 : Vec F S256x8192 .bf16) (x4 : Vec F S1x8192 .f32) (x5 : Vec F S1x8192 .f32) (x6 : Vec F S256x2048 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = k0_pay2 x0 x2 x1 x3 (k0_pay1 x4 x5) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  rw [View.canon_cons_unit_zero (S := S256x8192) hz, View.readCov_unit_zero (S := S256x8192) _ hz]
  simp only [View.readAt_eq_ld, harg2.read_unread, harg3.read_unread, harg4.read_unread, harg5.read_unread, harg6.read_unread, harg7.read_unread, harg8.read_unread, harg15.read_unread, View.ld_unit_zero (S := S256x256) hz, View.ld_unit_zero (S := S256x8192) hz, View.ld_unit_zero (S := S1x8192) hz, View.ld_unit_zero (S := S256x2048) hz]

/-- The running block after a middle step: what the step before left plus the step's partial products. -/
theorem after_middle (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x8192 .bf16) (harg4 : arg4.IsWhole) (arg5 : Memref sig .tc .vmem S256x8192 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x8192 .f32) (harg15 : arg15.IsWhole) (hc0 : ¬cond0_0 i) (hc1 : ¬cond0_1 i)
    (x0 : Vec F S256x256 .bf16) (x1 : Vec F S256x256 .bf16) (x2 : Vec F S256x8192 .bf16) (x3 : Vec F S256x8192 .bf16) (x4 : Vec F S1x8192 .f32) (x5 : Vec F S1x8192 .f32) (x6 : Vec F S256x2048 .f32) (xs0 : Vec F S256x8192 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 = (k0_pay2 x0 x2 x1 x3 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0)]
  unfold kernelRun0_B
  dsimp only
  rw [View.canon_unit_zero hz]
  simp only [View.readAt_eq_ld, harg2.read_unread, harg3.read_unread, harg4.read_unread, harg5.read_unread, harg6.read_unread, harg7.read_unread, harg8.read_unread, harg15.read_unread, View.ld_unit_zero (S := S256x256) hz, View.ld_unit_zero (S := S256x8192) hz, View.ld_unit_zero (S := S1x8192) hz, View.ld_unit_zero (S := S256x2048) hz]

/-- The running block after the last step: likewise. -/
theorem after_last (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x8192 .bf16) (harg4 : arg4.IsWhole) (arg5 : Memref sig .tc .vmem S256x8192 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x8192 .f32) (harg15 : arg15.IsWhole) (hc0 : ¬cond0_0 i) (hc1 : cond0_1 i)
    (x0 : Vec F S256x256 .bf16) (x1 : Vec F S256x256 .bf16) (x2 : Vec F S256x8192 .bf16) (x3 : Vec F S256x8192 .bf16) (x4 : Vec F S1x8192 .f32) (x5 : Vec F S1x8192 .f32) (x6 : Vec F S256x2048 .f32) (xs0 : Vec F S256x8192 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 = (k0_pay2 x0 x2 x1 x3 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg15.read_unread, View.ld_unit_zero (S := S256x256) hz, View.ld_unit_zero (S := S256x8192) hz, View.ld_unit_zero (S := S1x8192) hz, View.ld_unit_zero (S := S256x2048) hz]

/-- The new hidden state's block, stored at the last step from the completed running block. -/
theorem last_hidden (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x8192 .bf16) (harg4 : arg4.IsWhole) (arg5 : Memref sig .tc .vmem S256x8192 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x8192 .f32) (harg15 : arg15.IsWhole) (hc0 : ¬cond0_0 i) (hc1 : cond0_1 i)
    (x0 : Vec F S256x256 .bf16) (x1 : Vec F S256x256 .bf16) (x2 : Vec F S256x8192 .bf16) (x3 : Vec F S256x8192 .bf16) (x4 : Vec F S1x8192 .f32) (x5 : Vec F S1x8192 .f32) (x6 : Vec F S256x2048 .f32) (xs0 : Vec F S256x8192 .f32) :
    out0_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 = k0_pay8 (k0_pay2 x0 x2 x1 x3 xs0) x6 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0)]
  unfold kernelRun0_C
  dsimp only
  sl_unfold_words
  rw [View.canon_unit_zero hz, View.readCov_unit_zero (S := S256x8192) _ hz]
  simp only [View.readAt_eq_ld, harg2.read_unread, harg3.read_unread, harg4.read_unread, harg5.read_unread, harg6.read_unread, harg7.read_unread, harg8.read_unread, harg15.read_unread, View.ld_unit_zero (S := S256x256) hz, View.ld_unit_zero (S := S256x8192) hz, View.ld_unit_zero (S := S1x8192) hz, View.ld_unit_zero (S := S256x2048) hz]

/-- The new cell state's block. -/
theorem last_cell (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x8192 .bf16) (harg4 : arg4.IsWhole) (arg5 : Memref sig .tc .vmem S256x8192 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x8192 .f32) (harg15 : arg15.IsWhole) (hc0 : ¬cond0_0 i) (hc1 : cond0_1 i)
    (x0 : Vec F S256x256 .bf16) (x1 : Vec F S256x256 .bf16) (x2 : Vec F S256x8192 .bf16) (x3 : Vec F S256x8192 .bf16) (x4 : Vec F S1x8192 .f32) (x5 : Vec F S1x8192 .f32) (x6 : Vec F S256x2048 .f32) (xs0 : Vec F S256x8192 .f32) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 = k0_pay7 (k0_pay2 x0 x2 x1 x3 xs0) x6 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0)]
  unfold kernelRun0_C
  dsimp only
  sl_unfold_words
  rw [View.canon_unit_zero hz, View.readCov_unit_zero (S := S256x8192) _ hz]
  simp only [View.readAt_eq_ld, harg2.read_unread, harg3.read_unread, harg4.read_unread, harg5.read_unread, harg6.read_unread, harg7.read_unread, harg8.read_unread, harg15.read_unread, View.ld_unit_zero (S := S256x256) hz, View.ld_unit_zero (S := S256x8192) hz, View.ld_unit_zero (S := S1x8192) hz, View.ld_unit_zero (S := S256x2048) hz]

/-- The forget gate's block. -/
theorem last_forget (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x8192 .bf16) (harg4 : arg4.IsWhole) (arg5 : Memref sig .tc .vmem S256x8192 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x8192 .f32) (harg15 : arg15.IsWhole) (hc0 : ¬cond0_0 i) (hc1 : cond0_1 i)
    (x0 : Vec F S256x256 .bf16) (x1 : Vec F S256x256 .bf16) (x2 : Vec F S256x8192 .bf16) (x3 : Vec F S256x8192 .bf16) (x4 : Vec F S1x8192 .f32) (x5 : Vec F S1x8192 .f32) (x6 : Vec F S256x2048 .f32) (xs0 : Vec F S256x8192 .f32) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 = k0_pay4 (k0_pay2 x0 x2 x1 x3 xs0) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0)]
  unfold kernelRun0_C
  dsimp only
  sl_unfold_words
  rw [View.canon_unit_zero hz, View.readCov_unit_zero (S := S256x8192) _ hz]
  simp only [View.readAt_eq_ld, harg2.read_unread, harg3.read_unread, harg4.read_unread, harg5.read_unread, harg6.read_unread, harg7.read_unread, harg8.read_unread, harg15.read_unread, View.ld_unit_zero (S := S256x256) hz, View.ld_unit_zero (S := S256x8192) hz, View.ld_unit_zero (S := S1x8192) hz, View.ld_unit_zero (S := S256x2048) hz]

/-- The input gate's block. -/
theorem last_input (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x8192 .bf16) (harg4 : arg4.IsWhole) (arg5 : Memref sig .tc .vmem S256x8192 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x8192 .f32) (harg15 : arg15.IsWhole) (hc0 : ¬cond0_0 i) (hc1 : cond0_1 i)
    (x0 : Vec F S256x256 .bf16) (x1 : Vec F S256x256 .bf16) (x2 : Vec F S256x8192 .bf16) (x3 : Vec F S256x8192 .bf16) (x4 : Vec F S1x8192 .f32) (x5 : Vec F S1x8192 .f32) (x6 : Vec F S256x2048 .f32) (xs0 : Vec F S256x8192 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 = k0_pay3 (k0_pay2 x0 x2 x1 x3 xs0) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0)]
  unfold kernelRun0_C
  dsimp only
  sl_unfold_words
  rw [View.canon_unit_zero hz, View.readCov_unit_zero (S := S256x8192) _ hz]
  simp only [View.readAt_eq_ld, harg2.read_unread, harg3.read_unread, harg4.read_unread, harg5.read_unread, harg6.read_unread, harg7.read_unread, harg8.read_unread, harg15.read_unread, View.ld_unit_zero (S := S256x256) hz, View.ld_unit_zero (S := S256x8192) hz, View.ld_unit_zero (S := S1x8192) hz, View.ld_unit_zero (S := S256x2048) hz]

/-- The candidate's block. -/
theorem last_candidate (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x8192 .bf16) (harg4 : arg4.IsWhole) (arg5 : Memref sig .tc .vmem S256x8192 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x8192 .f32) (harg15 : arg15.IsWhole) (hc0 : ¬cond0_0 i) (hc1 : cond0_1 i)
    (x0 : Vec F S256x256 .bf16) (x1 : Vec F S256x256 .bf16) (x2 : Vec F S256x8192 .bf16) (x3 : Vec F S256x8192 .bf16) (x4 : Vec F S1x8192 .f32) (x5 : Vec F S1x8192 .f32) (x6 : Vec F S256x2048 .f32) (xs0 : Vec F S256x8192 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 = k0_pay5 (k0_pay2 x0 x2 x1 x3 xs0) := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0)]
  unfold kernelRun0_C
  dsimp only
  sl_unfold_words
  rw [View.canon_unit_zero hz, View.readCov_unit_zero (S := S256x8192) _ hz]
  simp only [View.readAt_eq_ld, harg2.read_unread, harg3.read_unread, harg4.read_unread, harg5.read_unread, harg6.read_unread, harg7.read_unread, harg8.read_unread, harg15.read_unread, View.ld_unit_zero (S := S256x256) hz, View.ld_unit_zero (S := S256x8192) hz, View.ld_unit_zero (S := S1x8192) hz, View.ld_unit_zero (S := S256x2048) hz]

/-- The output gate's block. -/
theorem last_output (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x8192 .bf16) (harg4 : arg4.IsWhole) (arg5 : Memref sig .tc .vmem S256x8192 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x8192 .f32) (harg15 : arg15.IsWhole) (hc0 : ¬cond0_0 i) (hc1 : cond0_1 i)
    (x0 : Vec F S256x256 .bf16) (x1 : Vec F S256x256 .bf16) (x2 : Vec F S256x8192 .bf16) (x3 : Vec F S256x8192 .bf16) (x4 : Vec F S1x8192 .f32) (x5 : Vec F S1x8192 .f32) (x6 : Vec F S256x2048 .f32) (xs0 : Vec F S256x8192 .f32) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 = k0_pay6 (k0_pay2 x0 x2 x1 x3 xs0) := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0)]
  unfold kernelRun0_C
  dsimp only
  sl_unfold_words
  rw [View.canon_unit_zero hz, View.readCov_unit_zero (S := S256x8192) _ hz]
  simp only [View.readAt_eq_ld, harg2.read_unread, harg3.read_unread, harg4.read_unread, harg5.read_unread, harg6.read_unread, harg7.read_unread, harg8.read_unread, harg15.read_unread, View.ld_unit_zero (S := S256x256) hz, View.ld_unit_zero (S := S256x8192) hz, View.ld_unit_zero (S := S1x8192) hz, View.ld_unit_zero (S := S256x2048) hz]

end Cert.KernelIdeal.Found

end
-- ==== Proof.Algebra.lean ====
/-
  The arithmetic that joins the two programs, over the extended reals.

  A row of 2048 products is cut by the kernel into eight consecutive runs of 256; addition on the
  extended reals is commutative and associative (no cancellation is used, so infinities are harmless), hence the bias
  pair added first and the eight partial sums of both matrix products added run by run give the same number as one
  full product, a bias, the other full product and the other bias added in that order.  The logistic function written
  as a quotient, 1 / (1 + e^(-z)), is the one function the kernel applies.
-/
import Idealize.ShloMosaic.PureOps.Ideal
import Idealize.ShloMosaic.PureOps.IdealRules
import Mathlib.Algebra.BigOperators.Fin
import Mathlib.Logic.Equiv.Fin.Basic

noncomputable section

namespace Cert.Lstm

open Idealize.ShloMosaic

/-- Position `256·s + j` of a row of length 2048, for run `s` and offset `j` inside the run. -/
def at8 (s : Fin 8) (j : Fin 256) : Fin 2048 := ⟨256 * s.val + j.val, by have := s.isLt; have := j.isLt; omega⟩

@[simp] theorem at8_val (s : Fin 8) (j : Fin 256) : (at8 s j).val = 256 * s.val + j.val := rfl

/-- The grid is 8 batch tiles by 8 contraction steps, row-major: point `n` is batch tile `n / 8` and step `n % 8`. -/
def tileOf (n : ℕ) : Fin 8 := ⟨n / 8 % 8, Nat.mod_lt _ (by decide)⟩
def stepOf (n : ℕ) : Fin 8 := ⟨n % 8, Nat.mod_lt _ (by decide)⟩

@[simp] theorem tileOf_val (n : ℕ) : (tileOf n).val = n / 8 % 8 := rfl
@[simp] theorem stepOf_val (n : ℕ) : (stepOf n).val = n % 8 := rfl

/-- A sum over a row of 2048 terms is the sum, over its eight runs of 256, of each run's sum. -/
theorem sum_runs {β : Type*} [AddCommMonoid β] (f : Fin 2048 → β) :
    ∑ J : Fin 2048, f J = ∑ s : Fin 8, ∑ j : Fin 256, f (at8 s j) := by
  have e := Equiv.sum_comp (finProdFinEquiv (m := 8) (n := 256)) (fun J : Fin (8 * 256) => f J)
  rw [Fintype.sum_prod_type] at e
  refine e.symm.trans (Finset.sum_congr rfl fun s _ => Finset.sum_congr rfl fun j _ => ?_)
  congr 1
  apply Fin.ext
  show j.val + 256 * s.val = 256 * s.val + j.val
  omega

/-- The kernel's grouping of the gate pre-activation equals the reference's: the two biases first and then, run by
    run, the partial sums of both products — against one product, a bias, the other product, the other bias. -/
theorem gates_law (f g : Fin 2048 → EReal) (a b : EReal) :
    (a + b) + ∑ s : Fin 8, ((∑ j : Fin 256, f (at8 s j)) + ∑ j : Fin 256, g (at8 s j))
      = ((∑ J : Fin 2048, f J) + a + ∑ J : Fin 2048, g J) + b := by
  rw [Finset.sum_add_distrib, ← sum_runs f, ← sum_runs g]
  abel

/-- Gate column `o + k` of the 8192 gate columns, for the gate whose range starts at `o` (0: input, 2048: forget,
    4096: candidate, 6144: output) and hidden unit `k`. -/
abbrev col (o : Nat) (k : Fin 2048) (h : o + 2048 ≤ 8192) : Fin 8192 := ⟨o + k.val, by have := k.isLt; omega⟩

/-- The logistic function and the hyperbolic tangent on the extended reals, as both programs apply them. -/
abbrev sigm (z : Ideal .f32) : Ideal .f32 := FloatOps.logistic z
abbrev tnh (z : Ideal .f32) : Ideal .f32 := FloatOps.tanh z

/-- The pattern of the float `1.0` denotes the number one. -/
theorem one_f32 : Ideal.ofBits .f32 0x3F800000#32 = 1 := IdealRules.sign_bit.ideal_onePat .f32

/-- The quotient form `1 / (1 + e^(-z))`, in the host's operations and with the literal `1.0`, is the logistic function. -/
theorem logistic_quotient (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = sigm z := by
  show FloatOps.hostDivf (Ideal.ofBits .f32 0x3F800000#32)
        (FloatOps.addf (Ideal.ofBits .f32 0x3F800000#32) (FloatOps.hostUnary .exp (FloatOps.hostNegf z))) = _
  rw [one_f32]
  rfl

end Cert.Lstm

end
-- ==== Proof.Stored.lean ====
/-
  What the body's stores hold, read at one position of the block, with floats read as extended reals.

  The first-step store is the bias row (the sum of the two bias vectors) repeated on all 256 rows.  The accumulation
  store adds to the running block, at row ρ and gate column n, the two partial dot products over the 256 contraction
  positions of the step: row ρ of the input block against column n of the input-weight block, and row ρ of the hidden
  block against column n of the hidden-weight block.  The last step's six stores apply the gate non-linearities to the
  four column ranges of the finished block: input, forget and output gates by the logistic function, the candidate by
  tanh; the new cell is forget · old cell + input · candidate and the new hidden value output · tanh(new cell).
-/
import proofs.«157634_j49675591746256_2_alg».proof.Proof.Gen.KernelIdeal.Skeleton
import Idealize.ShloMosaic.Lib.Pipeline.Value
import Idealize.ShloMosaic.Lib.ValueIdx
import Idealize.ShloMosaic.PureOps.Ideal.Laws
import proofs.«157634_j49675591746256_2_alg».proof.Proof.Algebra

noncomputable section

namespace Cert.KernelIdeal.Stored

open Cert.KernelIdeal Cert.KernelIdeal.Gen Idealize.ShloMosaic Idealize.ShloMosaic.ValueIdx
open Cert.Lstm (col sigm tnh)

/-! ## The matrix product of a step, at a position -/

theorem lhs_row (i : S256x8192.Idx) (q : dot_S256x256_S256x8192_S256x8192_1_0_0_1_n_n.contr.Idx) : (dot_S256x256_S256x8192_S256x8192_1_0_0_1_n_n.lhsIdx i q 0).val = (i 0).val := by
  unfold DotDims.lhsIdx
  rw [dif_neg (show ¬(0 : Fin S256x256.rank) ∈ dot_S256x256_S256x8192_S256x8192_1_0_0_1_n_n.lhsBatch by decide), dif_pos (show (0 : Fin S256x256.rank) ∈ dot_S256x256_S256x8192_S256x8192_1_0_0_1_n_n.lhsNonContracting by decide)]
  rfl
theorem lhs_contr (i : S256x8192.Idx) (q : dot_S256x256_S256x8192_S256x8192_1_0_0_1_n_n.contr.Idx) : (dot_S256x256_S256x8192_S256x8192_1_0_0_1_n_n.lhsIdx i q 1).val = (q ⟨0, by decide⟩).val :=
  dot_S256x256_S256x8192_S256x8192_1_0_0_1_n_n.lhsIdx_val_of_single rfl i q
theorem rhs_contr (i : S256x8192.Idx) (q : dot_S256x256_S256x8192_S256x8192_1_0_0_1_n_n.contr.Idx) : (dot_S256x256_S256x8192_S256x8192_1_0_0_1_n_n.rhsIdx i q 0).val = (q ⟨0, by decide⟩).val :=
  dot_S256x256_S256x8192_S256x8192_1_0_0_1_n_n.rhsIdx_val_of_single rfl i q
theorem rhs_col (i : S256x8192.Idx) (q : dot_S256x256_S256x8192_S256x8192_1_0_0_1_n_n.contr.Idx) : (dot_S256x256_S256x8192_S256x8192_1_0_0_1_n_n.rhsIdx i q 1).val = (i 1).val := by
  unfold DotDims.rhsIdx
  rw [dif_neg (show ¬(1 : Fin S256x8192.rank) ∈ dot_S256x256_S256x8192_S256x8192_1_0_0_1_n_n.rhsBatch by decide), dif_pos (show (1 : Fin S256x8192.rank) ∈ dot_S256x256_S256x8192_S256x8192_1_0_0_1_n_n.rhsNonContracting by decide)]
  rfl

/-- A block product into the zero block, at row `ρ` and column `n`: the dot product of row `ρ` of the left block with
    column `n` of the right block. -/
theorem product_apply (l : FVec Ideal S256x256 .bf16) (r : FVec Ideal S256x8192 .bf16) (ρ : Fin 256) (n : Fin 8192) :
    matmul (F := Ideal) dot_S256x256_S256x8192_S256x8192_1_0_0_1_n_n none l r (constant (F := Ideal) S256x8192 .f32 0x00000000#32) (ix2 ρ n)
      = ∑ j : Fin 256, l (ix2 ρ j) * r (ix2 j n) := by
  simp only [matmul]
  rw [Ideal.matmul_constant_zero_apply, ← Equiv.sum_comp (contrEquiv1 dot_S256x256_S256x8192_S256x8192_1_0_0_1_n_n 256 rfl rfl).symm]
  refine Finset.sum_congr rfl fun k _ => ?_
  have hk := contrEquiv1_symm_val dot_S256x256_S256x8192_S256x8192_1_0_0_1_n_n 256 rfl rfl k
  have el : dot_S256x256_S256x8192_S256x8192_1_0_0_1_n_n.lhsIdx (ix2 ρ n) ((contrEquiv1 dot_S256x256_S256x8192_S256x8192_1_0_0_1_n_n 256 rfl rfl).symm k) = ix2 ρ k := funext fun a => Fin.ext (by
    match a with
    | ⟨0, _⟩ => exact lhs_row _ _
    | ⟨1, _⟩ => exact (lhs_contr _ _).trans hk)
  have er : dot_S256x256_S256x8192_S256x8192_1_0_0_1_n_n.rhsIdx (ix2 ρ n) ((contrEquiv1 dot_S256x256_S256x8192_S256x8192_1_0_0_1_n_n 256 rfl rfl).symm k) = ix2 k n := funext fun a => Fin.ext (by
    match a with
    | ⟨0, _⟩ => exact (rhs_contr _ _).trans hk
    | ⟨1, _⟩ => exact rhs_col _ _)
  rw [el, er]

/-! ## The two stores into the running block -/

/-- The first step's reset: every row holds the sum of the two bias rows. -/
theorem bias_apply (b1 b2 : Vec Ideal S1x8192 .f32) (ρ : Fin 256) (n : Fin 8192) :
    k0_pay1 (F := Ideal) b1 b2 (ix2 ρ n) = b1 (ix2 0 n) + b2 (ix2 0 n) := by
  unfold k0_pay1
  simp only [shapeCast_self]
  exact broadcastTo_apply _ broadcasts_S1x8192_S256x8192 (ix2 ρ n) (ix2 0 n) (fun a => match a with
    | ⟨0, _⟩ => by show 0 = if (1 : Nat) = 1 then 0 else ρ.val; rw [if_pos rfl]
    | ⟨1, _⟩ => by show n.val = if (8192 : Nat) = 1 then 0 else n.val; rw [if_neg (by decide)])

/-- Every step's accumulation: the running block plus the step's two partial products. -/
theorem step_apply (xb : Vec Ideal S256x256 .bf16) (wb : Vec Ideal S256x8192 .bf16) (hb : Vec Ideal S256x256 .bf16)
    (vb : Vec Ideal S256x8192 .bf16) (acc : Vec Ideal S256x8192 .f32) (ρ : Fin 256) (n : Fin 8192) :
    k0_pay2 (F := Ideal) xb wb hb vb acc (ix2 ρ n)
      = acc (ix2 ρ n) + ((∑ j : Fin 256, xb (ix2 ρ j) * wb (ix2 j n)) + ∑ j : Fin 256, hb (ix2 ρ j) * vb (ix2 j n)) := by
  unfold k0_pay2
  simp only [shapeCast_self]
  show acc (ix2 ρ n) + (matmul (F := Ideal) dot_S256x256_S256x8192_S256x8192_1_0_0_1_n_n none xb wb (constant (F := Ideal) S256x8192 .f32 0x00000000#32) (ix2 ρ n)
    + matmul (F := Ideal) dot_S256x256_S256x8192_S256x8192_1_0_0_1_n_n none hb vb (constant (F := Ideal) S256x8192 .f32 0x00000000#32) (ix2 ρ n)) = _
  rw [product_apply, product_apply]

/-! ## The four column ranges of the finished block -/

theorem range0_apply (g : Vec Ideal S256x8192 .f32) (ρ : Fin 256) (k : Fin 2048) :
    extractStridedSlice S256x2048 ![0, 0] g slices_S256x8192_o0_0_S256x2048 (ix2 ρ k) = g (ix2 ρ (col 0 k (by decide))) :=
  extractStridedSlice_apply _ g _ (ix2 ρ k) (ix2 ρ (col 0 k (by decide))) (fun a => match a with
    | ⟨0, _⟩ => by show ρ.val = 0 + ρ.val; omega
    | ⟨1, _⟩ => by show 0 + k.val = 0 + k.val; rfl)
theorem range1_apply (g : Vec Ideal S256x8192 .f32) (ρ : Fin 256) (k : Fin 2048) :
    extractStridedSlice S256x2048 ![0, 2048] g slices_S256x8192_o0_2048_S256x2048 (ix2 ρ k) = g (ix2 ρ (col 2048 k (by decide))) :=
  extractStridedSlice_apply _ g _ (ix2 ρ k) (ix2 ρ (col 2048 k (by decide))) (fun a => match a with
    | ⟨0, _⟩ => by show ρ.val = 0 + ρ.val; omega
    | ⟨1, _⟩ => by show 2048 + k.val = 2048 + k.val; rfl)
theorem range2_apply (g : Vec Ideal S256x8192 .f32) (ρ : Fin 256) (k : Fin 2048) :
    extractStridedSlice S256x2048 ![0, 4096] g slices_S256x8192_o0_4096_S256x2048 (ix2 ρ k) = g (ix2 ρ (col 4096 k (by decide))) :=
  extractStridedSlice_apply _ g _ (ix2 ρ k) (ix2 ρ (col 4096 k (by decide))) (fun a => match a with
    | ⟨0, _⟩ => by show ρ.val = 0 + ρ.val; omega
    | ⟨1, _⟩ => by show 4096 + k.val = 4096 + k.val; rfl)
theorem range3_apply (g : Vec Ideal S256x8192 .f32) (ρ : Fin 256) (k : Fin 2048) :
    extractStridedSlice S256x2048 ![0, 6144] g slices_S256x8192_o0_6144_S256x2048 (ix2 ρ k) = g (ix2 ρ (col 6144 k (by decide))) :=
  extractStridedSlice_apply _ g _ (ix2 ρ k) (ix2 ρ (col 6144 k (by decide))) (fun a => match a with
    | ⟨0, _⟩ => by show ρ.val = 0 + ρ.val; omega
    | ⟨1, _⟩ => by show 6144 + k.val = 6144 + k.val; rfl)

/-! ## The six gate outputs, at a position -/

/-- The input gate. -/
theorem inputGate_apply (g : Vec Ideal S256x8192 .f32) (ρ : Fin 256) (k : Fin 2048) :
    k0_pay3 (F := Ideal) g (ix2 ρ k) = sigm (g (ix2 ρ (col 0 k (by decide)))) := by
  unfold k0_pay3
  exact congrArg sigm (range0_apply g ρ k)
/-- The forget gate. -/
theorem forgetGate_apply (g : Vec Ideal S256x8192 .f32) (ρ : Fin 256) (k : Fin 2048) :
    k0_pay4 (F := Ideal) g (ix2 ρ k) = sigm (g (ix2 ρ (col 2048 k (by decide)))) := by
  unfold k0_pay4
  exact congrArg sigm (range1_apply g ρ k)
/-- The candidate. -/
theorem candidate_apply (g : Vec Ideal S256x8192 .f32) (ρ : Fin 256) (k : Fin 2048) :
    k0_pay5 (F := Ideal) g (ix2 ρ k) = tnh (g (ix2 ρ (col 4096 k (by decide)))) := by
  unfold k0_pay5
  exact congrArg tnh (range2_apply g ρ k)
/-- The output gate. -/
theorem outputGate_apply (g : Vec Ideal S256x8192 .f32) (ρ : Fin 256) (k : Fin 2048) :
    k0_pay6 (F := Ideal) g (ix2 ρ k) = sigm (g (ix2 ρ (col 6144 k (by decide)))) := by
  unfold k0_pay6
  exact congrArg sigm (range3_apply g ρ k)
/-- The new cell: forget · old cell + input · candidate. -/
theorem newCell_apply (g : Vec Ideal S256x8192 .f32) (cell : Vec Ideal S256x2048 .f32) (ρ : Fin 256) (k : Fin 2048) :
    k0_pay7 (F := Ideal) g cell (ix2 ρ k)
      = sigm (g (ix2 ρ (col 2048 k (by decide)))) * cell (ix2 ρ k)
          + sigm (g (ix2 ρ (col 0 k (by decide)))) * tnh (g (ix2 ρ (col 4096 k (by decide)))) := by
  unfold k0_pay7
  show k0_pay4 (F := Ideal) g (ix2 ρ k) * cell (ix2 ρ k) + k0_pay3 (F := Ideal) g (ix2 ρ k) * k0_pay5 (F := Ideal) g (ix2 ρ k) = _
  rw [forgetGate_apply, inputGate_apply, candidate_apply]
/-- The new hidden value: output · tanh(new cell). -/
theorem newHidden_apply (g : Vec Ideal S256x8192 .f32) (cell : Vec Ideal S256x2048 .f32) (ρ : Fin 256) (k : Fin 2048) :
    k0_pay8 (F := Ideal) g cell (ix2 ρ k)
      = sigm (g (ix2 ρ (col 6144 k (by decide)))) * tnh (k0_pay7 (F := Ideal) g cell (ix2 ρ k)) := by
  unfold k0_pay8
  show k0_pay6 (F := Ideal) g (ix2 ρ k) * tnh (k0_pay7 (F := Ideal) g cell (ix2 ρ k)) = _
  rw [outputGate_apply]

end Cert.KernelIdeal.Stored

end
-- ==== Proof.Blocks.lean ====
/-
  The blocks the pipeline hands the body, read at a position, in terms of the argument arrays.

  The grid is 8 batch tiles by 8 contraction steps; point `t` is batch tile `t / 8`, step `t % 8`.  The rounding of the
  inputs and weights to bf16 before the call is the identity on the extended reals, so the input block at a point is
  rows `256·(t/8) …` and columns `256·(t%8) …` of `x` (likewise of the previous hidden state), a weight block is rows
  `256·(t%8) …` of the transposed weights, that is columns `256·(t%8) …` of the weight matrix itself, each bias block is
  the bias vector as one row, and the cell block is rows `256·(t/8) …` of the previous cell state.
-/
import proofs.«157634_j49675591746256_2_alg».proof.Proof.Gen.KernelIdeal.Frame
import Idealize.ShloMosaic.Lib.Pipeline.Value
import Idealize.ShloMosaic.Lib.ValueIdx
import Idealize.ShloMosaic.Lib.StableHlo.Run
import proofs.«157634_j49675591746256_2_alg».proof.Proof.Algebra

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Cert.Lstm (at8 tileOf stepOf)

variable (m : (ℓ : Loc nD τ sig) → Buf (Elt Ideal) ℓ)

/-! ## The seven arguments, as arrays of extended reals -/

/-- The input `x`. -/
abbrev inX (c : Dev nD) : S2048x2048.Idx → EReal := m ((c : Thread nD τ).loc main_arg0)
/-- The previous hidden state. -/
abbrev inH (c : Dev nD) : S2048x2048.Idx → EReal := m ((c : Thread nD τ).loc main_arg1)
/-- The previous cell state. -/
abbrev inC (c : Dev nD) : S2048x2048.Idx → EReal := m ((c : Thread nD τ).loc main_arg2)
/-- The input weights, one row per gate column. -/
abbrev inWi (c : Dev nD) : S8192x2048.Idx → EReal := m ((c : Thread nD τ).loc main_arg3)
/-- The input bias. -/
abbrev inBi (c : Dev nD) : S8192.Idx → EReal := m ((c : Thread nD τ).loc main_arg4)
/-- The hidden weights, one row per gate column. -/
abbrev inWh (c : Dev nD) : S8192x2048.Idx → EReal := m ((c : Thread nD τ).loc main_arg5)
/-- The hidden bias. -/
abbrev inBh (c : Dev nD) : S8192.Idx → EReal := m ((c : Thread nD τ).loc main_arg6)

/-- The printed index maps over the grid: batch tile `t / 8`, contraction step `t % 8`. -/
theorem index_facts : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = t.val % 8
    ∧ win0_2.index t (0 : Fin 2) = t.val % 8 ∧ win0_2.index t (1 : Fin 2) = 0
    ∧ win0_3.index t (0 : Fin 2) = t.val % 8 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val / 8 ∧ win0_6.index t (1 : Fin 2) = 0 :=
  (by decide +kernel : ∀ t : Fin grid0.N, _)

/-! ## The arrays the region finds, as the host operations before it leave them -/

theorem found_x (c : Dev nD) : (V m c main_v0 : S2048x2048.Idx → EReal) = m ((c : Thread nD τ).loc main_arg0) := by
  dsimp only [V, hostOps0]; after_results; rfl
theorem found_h (c : Dev nD) : (V m c main_v1 : S2048x2048.Idx → EReal) = m ((c : Thread nD τ).loc main_arg1) := by
  dsimp only [V, hostOps0]; after_results; rfl
theorem found_wi (c : Dev nD) : (V m c main_v3 : S2048x8192.Idx → EReal)
    = transpose S2048x8192 [1, 0] (m ((c : Thread nD τ).loc main_arg3)) transposes_S8192x2048_S2048x8192_1_0 := by
  dsimp only [V, hostOps0]; after_results; rfl
theorem found_wh (c : Dev nD) : (V m c main_v5 : S2048x8192.Idx → EReal)
    = transpose S2048x8192 [1, 0] (m ((c : Thread nD τ).loc main_arg5)) transposes_S8192x2048_S2048x8192_1_0 := by
  dsimp only [V, hostOps0]; after_results; rfl
theorem found_bi (c : Dev nD) : (V m c main_v6 : S1x8192.Idx → EReal)
    = shapeCast S1x8192 (m ((c : Thread nD τ).loc main_arg4)) shapeCasts_S8192_S1x8192 := by
  dsimp only [V, hostOps0]; after_results; rfl
theorem found_bh (c : Dev nD) : (V m c main_v7 : S1x8192.Idx → EReal)
    = shapeCast S1x8192 (m ((c : Thread nD τ).loc main_arg6)) shapeCasts_S8192_S1x8192 := by
  dsimp only [V, hostOps0]; after_results; rfl

/-- A transposed weight matrix at (contraction position, gate column) is the weight matrix at (gate column, position). -/
theorem transposed_apply (w : S8192x2048.Idx → EReal) (J : Fin 2048) (n : Fin 8192) :
    transpose S2048x8192 [1, 0] w transposes_S8192x2048_S2048x8192_1_0 (ix2 J n) = w (ix2 n J) :=
  transpose_apply [1, 0] w transposes_S8192x2048_S2048x8192_1_0 (ix2 J n) (ix2 n J) (fun b => match b with
    | ⟨0, _⟩ => rfl
    | ⟨1, _⟩ => rfl)

/-- A bias vector viewed as one row, at (0, gate column). -/
theorem row_apply (b : S8192.Idx → EReal) (n : Fin 8192) :
    shapeCast S1x8192 b shapeCasts_S8192_S1x8192 (ix2 0 n) = b (ix1 n) := by
  refine (shapeCast_addUnit_apply ![8192] b shapeCasts_S8192_S1x8192 (ix2 0 n)).trans (congrArg b ?_)
  funext a
  match a with
  | ⟨0, _⟩ => rfl

/-! ## The seven input blocks at a point -/

theorem block_x (c : Dev nD) (t : Fin cfg0.N) (ρ j : Fin 256) :
    (iblk m c 0 t : S256x256.Idx → EReal) (ix2 ρ j)
      = inX m c (ix2 (at8 (tileOf t.val) ρ)
          (at8 (stepOf t.val) j)) := by
  obtain ⟨e0, e1, -⟩ := index_facts t
  show V m c main_v0 (((cfg0.win 0).blk t).view.emb (ix2 ρ j)) = _
  rw [found_x]
  refine congrArg _ (funext fun a => Fin.ext ?_)
  match a with
  | ⟨0, _⟩ => show win0_0.index t (0 : Fin 2) * 256 + 1 * ρ.val = 256 * (t.val / 8 % 8) + ρ.val; rw [e0]; have := t.isLt; have : cfg0.N = 64 := N_0; omega
  | ⟨1, _⟩ => show win0_0.index t (1 : Fin 2) * 256 + 1 * j.val = 256 * (t.val % 8) + j.val; rw [e1]; omega

theorem block_h (c : Dev nD) (t : Fin cfg0.N) (ρ j : Fin 256) :
    (iblk m c 1 t : S256x256.Idx → EReal) (ix2 ρ j)
      = inH m c (ix2 (at8 (tileOf t.val) ρ)
          (at8 (stepOf t.val) j)) := by
  obtain ⟨-, -, e0, e1, -⟩ := index_facts t
  show V m c main_v1 (((cfg0.win 1).blk t).view.emb (ix2 ρ j)) = _
  rw [found_h]
  refine congrArg _ (funext fun a => Fin.ext ?_)
  match a with
  | ⟨0, _⟩ => show win0_1.index t (0 : Fin 2) * 256 + 1 * ρ.val = 256 * (t.val / 8 % 8) + ρ.val; rw [e0]; have := t.isLt; have : cfg0.N = 64 := N_0; omega
  | ⟨1, _⟩ => show win0_1.index t (1 : Fin 2) * 256 + 1 * j.val = 256 * (t.val % 8) + j.val; rw [e1]; omega

theorem block_wi (c : Dev nD) (t : Fin cfg0.N) (j : Fin 256) (n : Fin 8192) :
    (iblk m c 2 t : S256x8192.Idx → EReal) (ix2 j n)
      = inWi m c (ix2 n (at8 (stepOf t.val) j)) := by
  obtain ⟨-, -, -, -, e0, e1, -⟩ := index_facts t
  show V m c main_v3 (((cfg0.win 2).blk t).view.emb (ix2 j n)) = _
  rw [found_wi]
  refine Eq.trans (congrArg _ (funext fun a => Fin.ext ?_)) (transposed_apply (m ((c : Thread nD τ).loc main_arg3)) (at8 (stepOf t.val) j) n)
  match a with
  | ⟨0, _⟩ => show win0_2.index t (0 : Fin 2) * 256 + 1 * j.val = 256 * (t.val % 8) + j.val; rw [e0]; omega
  | ⟨1, _⟩ => show win0_2.index t (1 : Fin 2) * 8192 + 1 * n.val = n.val; rw [e1]; omega

theorem block_wh (c : Dev nD) (t : Fin cfg0.N) (j : Fin 256) (n : Fin 8192) :
    (iblk m c 3 t : S256x8192.Idx → EReal) (ix2 j n)
      = inWh m c (ix2 n (at8 (stepOf t.val) j)) := by
  obtain ⟨-, -, -, -, -, -, e0, e1, -⟩ := index_facts t
  show V m c main_v5 (((cfg0.win 3).blk t).view.emb (ix2 j n)) = _
  rw [found_wh]
  refine Eq.trans (congrArg _ (funext fun a => Fin.ext ?_)) (transposed_apply (m ((c : Thread nD τ).loc main_arg5)) (at8 (stepOf t.val) j) n)
  match a with
  | ⟨0, _⟩ => show win0_3.index t (0 : Fin 2) * 256 + 1 * j.val = 256 * (t.val % 8) + j.val; rw [e0]; omega
  | ⟨1, _⟩ => show win0_3.index t (1 : Fin 2) * 8192 + 1 * n.val = n.val; rw [e1]; omega

theorem block_bi (c : Dev nD) (t : Fin cfg0.N) (n : Fin 8192) :
    (iblk m c 4 t : S1x8192.Idx → EReal) (ix2 0 n) = inBi m c (ix1 n) := by
  obtain ⟨-, -, -, -, -, -, -, -, e0, e1, -⟩ := index_facts t
  show V m c main_v6 (((cfg0.win 4).blk t).view.emb (ix2 0 n)) = _
  rw [found_bi]
  refine Eq.trans (congrArg _ (funext fun a => Fin.ext ?_)) (row_apply (m ((c : Thread nD τ).loc main_arg4)) n)
  match a with
  | ⟨0, _⟩ => show win0_4.index t (0 : Fin 2) * 1 + 1 * 0 = 0; rw [e0]
  | ⟨1, _⟩ => show win0_4.index t (1 : Fin 2) * 8192 + 1 * n.val = n.val; rw [e1]; omega

theorem block_bh (c : Dev nD) (t : Fin cfg0.N) (n : Fin 8192) :
    (iblk m c 5 t : S1x8192.Idx → EReal) (ix2 0 n) = inBh m c (ix1 n) := by
  obtain ⟨-, -, -, -, -, -, -, -, -, -, e0, e1, -⟩ := index_facts t
  show V m c main_v7 (((cfg0.win 5).blk t).view.emb (ix2 0 n)) = _
  rw [found_bh]
  refine Eq.trans (congrArg _ (funext fun a => Fin.ext ?_)) (row_apply (m ((c : Thread nD τ).loc main_arg6)) n)
  match a with
  | ⟨0, _⟩ => show win0_5.index t (0 : Fin 2) * 1 + 1 * 0 = 0; rw [e0]
  | ⟨1, _⟩ => show win0_5.index t (1 : Fin 2) * 8192 + 1 * n.val = n.val; rw [e1]; omega

theorem block_cell (c : Dev nD) (t : Fin cfg0.N) (ρ : Fin 256) (k : Fin 2048) :
    (iblk m c 6 t : S256x2048.Idx → EReal) (ix2 ρ k)
      = inC m c (ix2 (at8 (tileOf t.val) ρ) k) := by
  obtain ⟨-, -, -, -, -, -, -, -, -, -, -, -, e0, e1⟩ := index_facts t
  show V m c main_arg2 (((cfg0.win 6).blk t).view.emb (ix2 ρ k)) = _
  rw [V_main_arg2]
  refine congrArg _ (funext fun a => Fin.ext ?_)
  match a with
  | ⟨0, _⟩ => show win0_6.index t (0 : Fin 2) * 256 + 1 * ρ.val = 256 * (t.val / 8 % 8) + ρ.val; rw [e0]; have := t.isLt; have : cfg0.N = 64 := N_0; omega
  | ⟨1, _⟩ => show win0_6.index t (1 : Fin 2) * 2048 + 1 * k.val = k.val; rw [e1]; omega

end Cert.KernelIdeal.Blocks

end
-- ==== Proof.RefCell.lean ====
/-
  The reference's six results, read at one position, over its gate pre-activations.

  The reference adds both matrix products and both biases into one array of 8192 gate columns, cuts it into the
  input, forget, candidate and output ranges, and applies the logistic function (spelt as the quotient
  1 / (1 + e^(-z))) to three of them and tanh to the candidate; the new cell is forget · old cell + input · candidate,
  the new hidden value output · tanh(new cell).  Here each result at row `r` and hidden unit `k` is written over the
  pre-activation array at row `r` and the four gate columns of `k`.
-/
import proofs.«157634_j49675591746256_2_alg».proof.Proof.Gen.ReferenceIdeal.Read
import proofs.«157634_j49675591746256_2_alg».proof.Proof.Algebra

noncomputable section

namespace Cert.ReferenceIdeal.Cell

open Cert.ReferenceIdeal Cert.ReferenceIdeal.Read Idealize.ShloMosaic Idealize.ShloMosaic.ValueIdx
open Cert.Lstm (col logistic_quotient sigm tnh)

variable (x0 x1 x2 : S2048x2048.Idx → EReal) (x3 : S8192x2048.Idx → EReal) (x4 : S8192.Idx → EReal)
  (x5 : S8192x2048.Idx → EReal) (x6 : S8192.Idx → EReal)

/-- The reference's gate pre-activations. -/
abbrev pre : S2048x8192.Idx → EReal := val_main_v10 (F := Ideal) x0 x1 x3 x4 x5 x6

theorem one_apply (i : S2048x2048.Idx) :
    val_main_v17 (F := Ideal) i = FloatOps.ofBits (F := Ideal) .f32 0x3F800000#32
    ∧ val_main_v19 (F := Ideal) i = FloatOps.ofBits (F := Ideal) .f32 0x3F800000#32
    ∧ val_main_v23 (F := Ideal) i = FloatOps.ofBits (F := Ideal) .f32 0x3F800000#32
    ∧ val_main_v25 (F := Ideal) i = FloatOps.ofBits (F := Ideal) .f32 0x3F800000#32
    ∧ val_main_v30 (F := Ideal) i = FloatOps.ofBits (F := Ideal) .f32 0x3F800000#32
    ∧ val_main_v32 (F := Ideal) i = FloatOps.ofBits (F := Ideal) .f32 0x3F800000#32 :=
  ⟨(val_main_v17_apply i).trans (val_main_cst_apply _), (val_main_v19_apply i).trans (val_main_cst_0_apply _),
    (val_main_v23_apply i).trans (val_main_cst_1_apply _), (val_main_v25_apply i).trans (val_main_cst_2_apply _),
    (val_main_v30_apply i).trans (val_main_cst_3_apply _), (val_main_v32_apply i).trans (val_main_cst_4_apply _)⟩

theorem range0 (r k : Fin 2048) : idx_main_v11 (ix2 r k) = ix2 r (col 0 k (by decide)) :=
  funext fun a => Fin.ext (by match a with | ⟨0, _⟩ => rfl | ⟨1, _⟩ => show k.val = 0 + k.val; omega)
theorem range1 (r k : Fin 2048) : idx_main_v12 (ix2 r k) = ix2 r (col 2048 k (by decide)) :=
  funext fun a => Fin.ext (by match a with | ⟨0, _⟩ => rfl | ⟨1, _⟩ => rfl)
theorem range2 (r k : Fin 2048) : idx_main_v13 (ix2 r k) = ix2 r (col 4096 k (by decide)) :=
  funext fun a => Fin.ext (by match a with | ⟨0, _⟩ => rfl | ⟨1, _⟩ => rfl)
theorem range3 (r k : Fin 2048) : idx_main_v14 (ix2 r k) = ix2 r (col 6144 k (by decide)) :=
  funext fun a => Fin.ext (by match a with | ⟨0, _⟩ => rfl | ⟨1, _⟩ => rfl)

/-- A pre-activation at batch row `r` and gate column `n`: the input row against the gate's input weights, the first
    bias, the hidden row against the gate's hidden weights, the second bias, added in that order. -/
theorem pre_apply (r : Fin 2048) (n : Fin 8192) :
    pre x0 x1 x3 x4 x5 x6 (ix2 r n)
      = ((∑ J : Fin 2048, x0 (ix2 r J) * x3 (ix2 n J)) + x4 (ix1 n) + ∑ J : Fin 2048, x1 (ix2 r J) * x5 (ix2 n J)) + x6 (ix1 n) := by
  have el : ∀ J : Fin 2048, lidx_main_v1 (ix2 r n) J = ix2 r J := fun J => funext fun a => Fin.ext (by
    match a with | ⟨0, _⟩ => rfl | ⟨1, _⟩ => rfl)
  have er : ∀ J : Fin 2048, idx_main_v0 (ridx_main_v1 (ix2 r n) J) = ix2 n J := fun J => funext fun a => Fin.ext (by
    match a with | ⟨0, _⟩ => rfl | ⟨1, _⟩ => rfl)
  have el' : ∀ J : Fin 2048, lidx_main_v6 (ix2 r n) J = ix2 r J := fun J => funext fun a => Fin.ext (by
    match a with | ⟨0, _⟩ => rfl | ⟨1, _⟩ => rfl)
  have er' : ∀ J : Fin 2048, idx_main_v5 (ridx_main_v6 (ix2 r n) J) = ix2 n J := fun J => funext fun a => Fin.ext (by
    match a with | ⟨0, _⟩ => rfl | ⟨1, _⟩ => rfl)
  have eb : idx_main_v2 (idx_main_v3 (ix2 r n)) = ix1 n := funext fun a => Fin.ext (by match a with | ⟨0, _⟩ => rfl)
  have eb' : idx_main_v8 (idx_main_v9 (ix2 r n)) = ix1 n := funext fun a => Fin.ext (by match a with | ⟨0, _⟩ => rfl)
  show val_main_v10 (F := Ideal) x0 x1 x3 x4 x5 x6 (ix2 r n) = _
  rw [val_main_v10_apply, val_main_v9_apply, val_main_v8_apply, val_main_v7_apply, val_main_v6_apply, val_main_v4_apply,
    val_main_v3_apply, val_main_v2_apply, val_main_v1_apply, eb, eb']
  simp only [val_main_v0_apply, val_main_v5_apply, el, er, el', er']
  rfl

/-- The input gate. -/
theorem inputGate_apply (r k : Fin 2048) :
    val_main_v20 (F := Ideal) x0 x1 x3 x4 x5 x6 (ix2 r k) = sigm (pre x0 x1 x3 x4 x5 x6 (ix2 r (col 0 k (by decide)))) := by
  rw [val_main_v20_apply, val_main_v18_apply, val_main_v16_apply, val_main_v15_apply, val_main_v11_apply,
    (one_apply (ix2 r k)).1, (one_apply (ix2 r k)).2.1, range0]
  exact logistic_quotient _

/-- The forget gate. -/
theorem forgetGate_apply (r k : Fin 2048) :
    val_main_v26 (F := Ideal) x0 x1 x3 x4 x5 x6 (ix2 r k) = sigm (pre x0 x1 x3 x4 x5 x6 (ix2 r (col 2048 k (by decide)))) := by
  rw [val_main_v26_apply, val_main_v24_apply, val_main_v22_apply, val_main_v21_apply, val_main_v12_apply,
    (one_apply (ix2 r k)).2.2.1, (one_apply (ix2 r k)).2.2.2.1, range1]
  exact logistic_quotient _

/-- The candidate. -/
theorem candidate_apply (r k : Fin 2048) :
    val_main_v27 (F := Ideal) x0 x1 x3 x4 x5 x6 (ix2 r k) = tnh (pre x0 x1 x3 x4 x5 x6 (ix2 r (col 4096 k (by decide)))) := by
  rw [val_main_v27_apply, val_main_v13_apply, range2]
  rfl

/-- The output gate. -/
theorem outputGate_apply (r k : Fin 2048) :
    val_main_v33 (F := Ideal) x0 x1 x3 x4 x5 x6 (ix2 r k) = sigm (pre x0 x1 x3 x4 x5 x6 (ix2 r (col 6144 k (by decide)))) := by
  rw [val_main_v33_apply, val_main_v31_apply, val_main_v29_apply, val_main_v28_apply, val_main_v14_apply,
    (one_apply (ix2 r k)).2.2.2.2.1, (one_apply (ix2 r k)).2.2.2.2.2, range3]
  exact logistic_quotient _

/-- The new cell. -/
theorem newCell_apply (r k : Fin 2048) :
    val_main_v36 (F := Ideal) x0 x1 x2 x3 x4 x5 x6 (ix2 r k)
      = sigm (pre x0 x1 x3 x4 x5 x6 (ix2 r (col 2048 k (by decide)))) * x2 (ix2 r k)
          + sigm (pre x0 x1 x3 x4 x5 x6 (ix2 r (col 0 k (by decide)))) * tnh (pre x0 x1 x3 x4 x5 x6 (ix2 r (col 4096 k (by decide)))) := by
  rw [val_main_v36_apply, val_main_v34_apply, val_main_v35_apply, forgetGate_apply, inputGate_apply, candidate_apply]
  rfl

/-- The new hidden value. -/
theorem newHidden_apply (r k : Fin 2048) :
    val_main_v38 (F := Ideal) x0 x1 x2 x3 x4 x5 x6 (ix2 r k)
      = sigm (pre x0 x1 x3 x4 x5 x6 (ix2 r (col 6144 k (by decide)))) * tnh (val_main_v36 (F := Ideal) x0 x1 x2 x3 x4 x5 x6 (ix2 r k)) := by
  rw [val_main_v38_apply, val_main_v37_apply, outputGate_apply]
  rfl

end Cert.ReferenceIdeal.Cell

end
-- ==== Proof.Running.lean ====
/-
  The running block after the last contraction step of a batch tile is the reference's gate pre-activations on the
  tile's rows.

  Step by step the body adds, to the bias rows stored at the first step, the partial products of the step's 256
  contraction positions; after the eighth step the entry at row ρ of tile q and gate column n is the two biases plus the
  eight partial sums of both products over the whole row of 2048 positions — by commutativity and associativity of
  addition on the extended reals, the reference's value at batch row 256·q + ρ and column n.
-/
import proofs.«157634_j49675591746256_2_alg».proof.Proof.Gen.KernelIdeal.Value
import proofs.«157634_j49675591746256_2_alg».proof.Proof.Found
import proofs.«157634_j49675591746256_2_alg».proof.Proof.Stored
import proofs.«157634_j49675591746256_2_alg».proof.Proof.Blocks
import proofs.«157634_j49675591746256_2_alg».proof.Proof.RefCell
import proofs.«157634_j49675591746256_2_alg».proof.Proof.Algebra

noncomputable section

namespace Cert.KernelIdeal.Running

open Cert.KernelIdeal Cert.KernelIdeal.Gen Idealize.ShloMosaic Idealize.ShloMosaic.TcCoe Idealize.SL.Sem
open Idealize.ShloMosaic.ValueIdx
open Cert.Lstm (at8 tileOf stepOf)

variable (m : (ℓ : Loc nD τ sig) → Buf (Elt Ideal) ℓ)

/-! ## One step of the running block, as a value of the point's blocks -/

/-- At the first step of a batch tile the block is reset to the bias rows and the step's products are added. -/
theorem step_first (c : Dev nD) (n : ℕ) (hb : n < cfg0.N) (acc : Vec Ideal S256x8192 .f32) (h0 : n % 8 = 0) :
    Value.scAt0_0 m c n hb acc
      = k0_pay2 (iblk m c 0 (⟨n, hb⟩ : Fin cfg0.N)) (iblk m c 2 (⟨n, hb⟩ : Fin cfg0.N)) (iblk m c 1 (⟨n, hb⟩ : Fin cfg0.N)) (iblk m c 3 (⟨n, hb⟩ : Fin cfg0.N)) (k0_pay1 (iblk m c 4 (⟨n, hb⟩ : Fin cfg0.N)) (iblk m c 5 (⟨n, hb⟩ : Fin cfg0.N))) := by
  have h1 : ¬n % 8 = 7 := by omega
  unfold Value.scAt0_0
  rw [dif_pos h0, dif_neg h1]
  exact Found.after_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))

/-- At every later step the step's products are added to what the step before left. -/
theorem step_later (c : Dev nD) (n : ℕ) (hb : n < cfg0.N) (acc : Vec Ideal S256x8192 .f32) (h0 : ¬n % 8 = 0) :
    Value.scAt0_0 m c n hb acc = k0_pay2 (iblk m c 0 (⟨n, hb⟩ : Fin cfg0.N)) (iblk m c 2 (⟨n, hb⟩ : Fin cfg0.N)) (iblk m c 1 (⟨n, hb⟩ : Fin cfg0.N)) (iblk m c 3 (⟨n, hb⟩ : Fin cfg0.N)) acc := by
  unfold Value.scAt0_0
  rw [dif_neg h0]
  by_cases h1 : n % 8 = 7
  · rw [dif_pos h1]
    exact Found.after_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc
  · rw [dif_neg h1]
    exact Found.after_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc

/-! ## The same at a position, over the argument arrays -/

/-- What point `n` adds at row ρ and gate column k of the block: the partial dot products, over the step's 256
    contraction positions, of the tile's input row with the gate's input weights and of the tile's hidden row with
    the gate's hidden weights. -/
def addend (c : Dev nD) (n : ℕ) (i : S256x8192.Idx) : EReal :=
  (∑ j : Fin 256, (Blocks.inX m c) (ix2 (at8 (tileOf n) (i 0)) (at8 (stepOf n) j)) * (Blocks.inWi m c) (ix2 (i 1) (at8 (stepOf n) j)))
    + ∑ j : Fin 256, (Blocks.inH m c) (ix2 (at8 (tileOf n) (i 0)) (at8 (stepOf n) j)) * (Blocks.inWh m c) (ix2 (i 1) (at8 (stepOf n) j))

/-- The two biases of a gate column. -/
def biases (c : Dev nD) (i : S256x8192.Idx) : EReal := (Blocks.inBi m c) (ix1 (i 1)) + (Blocks.inBh m c) (ix1 (i 1))

theorem products_apply (c : Dev nD) (n : ℕ) (xb hb : S256x256.Idx → EReal) (wb vb : S256x8192.Idx → EReal)
    (hx : ∀ (ρ j : Fin 256), xb (ix2 ρ j) = Blocks.inX m c (ix2 (at8 (tileOf n) ρ) (at8 (stepOf n) j)))
    (hh : ∀ (ρ j : Fin 256), hb (ix2 ρ j) = Blocks.inH m c (ix2 (at8 (tileOf n) ρ) (at8 (stepOf n) j)))
    (hw : ∀ (j : Fin 256) (k : Fin 8192), wb (ix2 j k) = Blocks.inWi m c (ix2 k (at8 (stepOf n) j)))
    (hv : ∀ (j : Fin 256) (k : Fin 8192), vb (ix2 j k) = Blocks.inWh m c (ix2 k (at8 (stepOf n) j)))
    (ρ : Fin 256) (k : Fin 8192) :
    (∑ j : Fin 256, xb (ix2 ρ j) * wb (ix2 j k)) + (∑ j : Fin 256, hb (ix2 ρ j) * vb (ix2 j k))
      = addend m c n (ix2 ρ k) := by
  simp only [hx, hh, hw, hv]
  rfl

theorem first_apply (c : Dev nD) (n : ℕ) (hb : n < cfg0.N) (acc : Vec Ideal S256x8192 .f32) (h0 : n % 8 = 0)
    (ρ : Fin 256) (k : Fin 8192) :
    Value.scAt0_0 m c n hb acc (ix2 ρ k) = biases m c (ix2 ρ k) + addend m c n (ix2 ρ k) := by
  rw [step_first m c n hb acc h0]
  refine (Stored.step_apply (iblk m c 0 (⟨n, hb⟩ : Fin cfg0.N)) (iblk m c 2 (⟨n, hb⟩ : Fin cfg0.N)) (iblk m c 1 (⟨n, hb⟩ : Fin cfg0.N)) (iblk m c 3 (⟨n, hb⟩ : Fin cfg0.N)) (k0_pay1 (iblk m c 4 (⟨n, hb⟩ : Fin cfg0.N)) (iblk m c 5 (⟨n, hb⟩ : Fin cfg0.N))) ρ k).trans ?_
  refine congrArg₂ (· + ·) ?_ (products_apply m c n (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
    (fun ρ j => Blocks.block_x m c (⟨n, hb⟩ : Fin cfg0.N) ρ j) (fun ρ j => Blocks.block_h m c (⟨n, hb⟩ : Fin cfg0.N) ρ j)
    (fun j k => Blocks.block_wi m c (⟨n, hb⟩ : Fin cfg0.N) j k) (fun j k => Blocks.block_wh m c (⟨n, hb⟩ : Fin cfg0.N) j k) ρ k)
  rw [Stored.bias_apply (iblk m c 4 (⟨n, hb⟩ : Fin cfg0.N)) (iblk m c 5 (⟨n, hb⟩ : Fin cfg0.N)) ρ k, Blocks.block_bi m c (⟨n, hb⟩ : Fin cfg0.N) k, Blocks.block_bh m c (⟨n, hb⟩ : Fin cfg0.N) k]
  rfl

theorem later_apply (c : Dev nD) (n : ℕ) (hb : n < cfg0.N) (acc : Vec Ideal S256x8192 .f32) (h0 : ¬n % 8 = 0)
    (ρ : Fin 256) (k : Fin 8192) :
    Value.scAt0_0 m c n hb acc (ix2 ρ k) = acc (ix2 ρ k) + addend m c n (ix2 ρ k) := by
  rw [step_later m c n hb acc h0]
  refine (Stored.step_apply (iblk m c 0 (⟨n, hb⟩ : Fin cfg0.N)) (iblk m c 2 (⟨n, hb⟩ : Fin cfg0.N)) (iblk m c 1 (⟨n, hb⟩ : Fin cfg0.N)) (iblk m c 3 (⟨n, hb⟩ : Fin cfg0.N)) acc ρ k).trans ?_
  exact congrArg₂ (· + ·) rfl (products_apply m c n (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
    (fun ρ j => Blocks.block_x m c (⟨n, hb⟩ : Fin cfg0.N) ρ j) (fun ρ j => Blocks.block_h m c (⟨n, hb⟩ : Fin cfg0.N) ρ j)
    (fun j k => Blocks.block_wi m c (⟨n, hb⟩ : Fin cfg0.N) j k) (fun j k => Blocks.block_wh m c (⟨n, hb⟩ : Fin cfg0.N) j k) ρ k)

/-! ## After the last step -/

/-- The running block after the last step of batch tile `t / 8`, at row ρ and gate column k, is the reference's gate
    pre-activation at batch row `256·(t/8) + ρ` and column k. -/
theorem completed_apply (c : Dev nD) (t : Fin cfg0.N) (h7 : t.val % 8 = 7) (ρ : Fin 256) (k : Fin 8192) :
    ((outsAt0 m c t.val t.isLt).2.2.2.2.2.2 : S256x8192.Idx → EReal) (ix2 ρ k)
      = Cert.ReferenceIdeal.Cell.pre (Blocks.inX m c) (Blocks.inH m c) (Blocks.inWi m c) (Blocks.inBi m c) (Blocks.inWh m c) (Blocks.inBh m c) (ix2 (at8 (tileOf t.val) ρ) k) := by
  have hN : cfg0.N = 64 := N_0
  have ht := t.isLt
  rw [Value.soutsAt0_0_eq m c t]
  refine (Pipeline.accAt_add_apply (N := cfg0.N) (ι := S256x8192.Idx) (β := EReal)
    (fun n h => Value.scAt0_0 m c n h (VS0_0.read (Elt Ideal) VS0_0.junk)) (Value.scAt0_0 m c)
    (biases m c) (addend m c) (8 * (t.val / 8)) 7
    (fun h i => by
      obtain ⟨ρ', k', rfl⟩ : ∃ (ρ' : Fin 256) (k' : Fin 8192), i = ix2 ρ' k' := ⟨i 0, i 1, eq_ix2 i⟩
      exact first_apply m c _ h _ (by omega) ρ' k')
    (fun n h acc i hlt hle => by
      obtain ⟨ρ', k', rfl⟩ : ∃ (ρ' : Fin 256) (k' : Fin 8192), i = ix2 ρ' k' := ⟨i 0, i 1, eq_ix2 i⟩
      exact later_apply m c n h acc (by omega) ρ' k')
    (t.val % 8) (by omega) _ (ix2 ρ k)).trans ?_
  rw [h7, Finset.sum_range]
  refine Eq.trans ?_ ((Cert.Lstm.gates_law
    (fun J => (Blocks.inX m c) (ix2 (at8 (tileOf t.val) ρ) J) * (Blocks.inWi m c) (ix2 k J))
    (fun J => (Blocks.inH m c) (ix2 (at8 (tileOf t.val) ρ) J) * (Blocks.inWh m c) (ix2 k J))
    ((Blocks.inBi m c) (ix1 k)) ((Blocks.inBh m c) (ix1 k))).trans
    (Cert.ReferenceIdeal.Cell.pre_apply (Blocks.inX m c) (Blocks.inH m c) (Blocks.inWi m c) (Blocks.inBi m c) (Blocks.inWh m c) (Blocks.inBh m c) (at8 (tileOf t.val) ρ) k).symm)
  refine congrArg₂ (· + ·) rfl (Finset.sum_congr rfl fun s _ => ?_)
  have e1 : tileOf (8 * (t.val / 8) + s.val) = tileOf t.val := Fin.ext (by
    show (8 * (t.val / 8) + s.val) / 8 % 8 = t.val / 8 % 8
    have := s.isLt; omega)
  have e2 : stepOf (8 * (t.val / 8) + s.val) = s := Fin.ext (by
    show (8 * (t.val / 8) + s.val) % 8 = s.val
    have := s.isLt; omega)
  unfold addend
  rw [e1, e2]

end Cert.KernelIdeal.Running

end
-- ==== Proof.Tile.lean ====
/-
  One batch tile: the six stored results against the reference's, position by position.

  If the completed running block of a tile holds the reference's gate pre-activations on the tile's rows, and the cell
  block the previous cell state on those rows, then each of the six values the body stores at the last step is, at row
  ρ and hidden unit k, the reference's corresponding result at batch row 256·q + ρ and unit k: both sides apply the same
  non-linearities to the same four pre-activations.
-/
import proofs.«157634_j49675591746256_2_alg».proof.Proof.Stored
import proofs.«157634_j49675591746256_2_alg».proof.Proof.RefCell

noncomputable section

namespace Cert.Lstm.Tile

open Cert.KernelIdeal Cert.KernelIdeal.Gen Idealize.ShloMosaic Idealize.ShloMosaic.ValueIdx
open Cert.ReferenceIdeal.Read Cert.ReferenceIdeal.Cell
open Cert.Lstm (at8)

variable (x0 x1 x2 : Cert.ReferenceIdeal.S2048x2048.Idx → EReal) (x3 : Cert.ReferenceIdeal.S8192x2048.Idx → EReal)
  (x4 : Cert.ReferenceIdeal.S8192.Idx → EReal) (x5 : Cert.ReferenceIdeal.S8192x2048.Idx → EReal)
  (x6 : Cert.ReferenceIdeal.S8192.Idx → EReal)
  (q : Fin 8) (g : Vec Ideal S256x8192 .f32) (cell : Vec Ideal S256x2048 .f32)
  (hg : ∀ (ρ : Fin 256) (n : Fin 8192), g (ix2 ρ n) = pre x0 x1 x3 x4 x5 x6 (ix2 (at8 q ρ) n))
  (hc : ∀ (ρ : Fin 256) (k : Fin 2048), cell (ix2 ρ k) = x2 (ix2 (at8 q ρ) k))

include hg in
theorem input_eq (ρ : Fin 256) (k : Fin 2048) :
    k0_pay3 (F := Ideal) g (ix2 ρ k) = val_main_v20 (F := Ideal) x0 x1 x3 x4 x5 x6 (ix2 (at8 q ρ) k) := by
  rw [Stored.inputGate_apply, hg, inputGate_apply]

include hg in
theorem forget_eq (ρ : Fin 256) (k : Fin 2048) :
    k0_pay4 (F := Ideal) g (ix2 ρ k) = val_main_v26 (F := Ideal) x0 x1 x3 x4 x5 x6 (ix2 (at8 q ρ) k) := by
  rw [Stored.forgetGate_apply, hg, forgetGate_apply]

include hg in
theorem candidate_eq (ρ : Fin 256) (k : Fin 2048) :
    k0_pay5 (F := Ideal) g (ix2 ρ k) = val_main_v27 (F := Ideal) x0 x1 x3 x4 x5 x6 (ix2 (at8 q ρ) k) := by
  rw [Stored.candidate_apply, hg, candidate_apply]

include hg in
theorem output_eq (ρ : Fin 256) (k : Fin 2048) :
    k0_pay6 (F := Ideal) g (ix2 ρ k) = val_main_v33 (F := Ideal) x0 x1 x3 x4 x5 x6 (ix2 (at8 q ρ) k) := by
  rw [Stored.outputGate_apply, hg, outputGate_apply]

include hg hc in
theorem newCell_eq (ρ : Fin 256) (k : Fin 2048) :
    k0_pay7 (F := Ideal) g cell (ix2 ρ k) = val_main_v36 (F := Ideal) x0 x1 x2 x3 x4 x5 x6 (ix2 (at8 q ρ) k) := by
  rw [Stored.newCell_apply, hg, hg, hg, hc, newCell_apply]

include hg hc in
theorem newHidden_eq (ρ : Fin 256) (k : Fin 2048) :
    k0_pay8 (F := Ideal) g cell (ix2 ρ k) = val_main_v38 (F := Ideal) x0 x1 x2 x3 x4 x5 x6 (ix2 (at8 q ρ) k) := by
  rw [Stored.newHidden_apply, hg, newCell_eq x0 x1 x2 x3 x4 x5 x6 q g cell hg hc, newHidden_apply]

end Cert.Lstm.Tile

end
-- ==== Proof.Final.lean ====
/-
  The six result arrays after the kernel's run are the reference's six results of the same arguments.

  Each result array of 2048 rows is written back in eight blocks of 256 rows, one per batch tile, after the tile's
  last contraction step; that block is the six gate results computed from the completed running block, which holds
  the reference's pre-activations on the tile's rows.  The eight blocks cover the array, so the array ends equal to
  the reference's result, position by position.
-/
import proofs.«157634_j49675591746256_2_alg».proof.Proof.Running
import proofs.«157634_j49675591746256_2_alg».proof.Proof.Tile

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)
open Cert.Lstm (at8 tileOf stepOf)

variable (m : (ℓ : Loc nD τ sig) → Buf (Elt Ideal) ℓ) (ρ : Dev nD → PrngReg)

/-- The output windows' index maps over the grid: block row `t / 8`, block column 0. -/
theorem out_index_facts : ∀ t : Fin cfg0.N,
    win0_7.index t (0 : Fin 2) = t.val / 8 ∧ win0_7.index t (1 : Fin 2) = 0
    ∧ win0_8.index t (0 : Fin 2) = t.val / 8 ∧ win0_8.index t (1 : Fin 2) = 0
    ∧ win0_9.index t (0 : Fin 2) = t.val / 8 ∧ win0_9.index t (1 : Fin 2) = 0
    ∧ win0_10.index t (0 : Fin 2) = t.val / 8 ∧ win0_10.index t (1 : Fin 2) = 0
    ∧ win0_11.index t (0 : Fin 2) = t.val / 8 ∧ win0_11.index t (1 : Fin 2) = 0
    ∧ win0_12.index t (0 : Fin 2) = t.val / 8 ∧ win0_12.index t (1 : Fin 2) = 0 :=
  (by decide +kernel : ∀ t : Fin grid0.N, _)

/-- The running block after a tile's last step is the last step's accumulation over what the step before left. -/
theorem carried_last (c : Dev nD) (t : Fin cfg0.N) (h0 : ¬t.val % 8 = 0) (h7 : t.val % 8 = 7) :
    (outsAt0 m c t.val t.isLt).2.2.2.2.2.2
      = k0_pay2 (iblk m c 0 t) (iblk m c 2 t) (iblk m c 1 t) (iblk m c 3 t) ((outsAt0 m c (t.val - 1) (Nat.lt_of_le_of_lt (Nat.sub_le _ _) t.isLt)).2.2.2.2.2.2) := by
  rw [outsAt0_C m c t h0 h7]
  dsimp only
  exact Found.after_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.2

/-! ## Output window 7: the new hidden state -/

/-- What the last step of a batch tile writes back for the new hidden state is the tile's rows of the reference's result. -/
theorem flushed_hidden (c : Dev nD) (t : Fin cfg0.N) (hf : (cfg0.win 7).flush t = true) :
    (dats m 0 c).flushed 7 t = ((cfg0.win 7).blk t).view.read (Elt Ideal) (Cert.ReferenceIdeal.Read.val_main_v38 (F := Ideal) (Blocks.inX m c) (Blocks.inH m c) (Blocks.inC m c) (Blocks.inWi m c) (Blocks.inBi m c) (Blocks.inWh m c) (Blocks.inBh m c)) := by
  have h7 : t.val % 8 = 7 := (flush0_7 t).mp hf
  have h0 : ¬t.val % 8 = 0 := by omega
  have hN : cfg0.N = 64 := N_0
  have ht := t.isLt
  obtain ⟨e0, e1, -⟩ := out_index_facts t
  have key : ∀ y : S256x2048.Idx, (k0_pay8 (F := Ideal) ((outsAt0 m c t.val t.isLt).2.2.2.2.2.2) (iblk m c 6 t)) y
      = (Cert.ReferenceIdeal.Read.val_main_v38 (F := Ideal) (Blocks.inX m c) (Blocks.inH m c) (Blocks.inC m c) (Blocks.inWi m c) (Blocks.inBi m c) (Blocks.inWh m c) (Blocks.inBh m c)) (ix2 (at8 (tileOf t.val) (y 0)) (y 1)) := fun y => by
    obtain ⟨ρ', k, rfl⟩ : ∃ (ρ' : Fin 256) (k : Fin 2048), y = ix2 ρ' k := ⟨y 0, y 1, eq_ix2 y⟩
    exact Cert.Lstm.Tile.newHidden_eq (Blocks.inX m c) (Blocks.inH m c) (Blocks.inC m c) (Blocks.inWi m c) (Blocks.inBi m c) (Blocks.inWh m c) (Blocks.inBh m c) (tileOf t.val) ((outsAt0 m c t.val t.isLt).2.2.2.2.2.2) (iblk m c 6 t) (fun ρ' n => Running.completed_apply m c t h7 ρ' n) (fun ρ' k => Blocks.block_cell m c t ρ' k) ρ' k
  rw [Value.flushed7_C m c t h0 h7, Found.last_hidden c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.2, ← carried_last m c t h0 h7]
  funext j
  refine (key ((cfg0.win 7).xinj (grid0.coords t) j)).trans (congrArg _ (funext fun a => Fin.ext ?_))
  match a with
  | ⟨0, _⟩ => show 256 * (t.val / 8 % 8) + (j 0).val = win0_7.index t (0 : Fin 2) * 256 + 1 * (j 0).val; rw [e0]; omega
  | ⟨1, _⟩ => show (j 1).val = win0_7.index t (1 : Fin 2) * 2048 + 1 * (j 1).val; rw [e1]; omega

/-- Every position of the result array lies in the block some batch tile's last step writes back. -/
theorem cover_hidden (c : Dev nD) (i : S2048x2048.Idx) :
    ∃ t : Fin cfg0.N, (cfg0.win 7).flush t = true ∧ i ∈ ((cfg0.win 7).blk t).view.set := by
  have hN : cfg0.N = 64 := N_0
  have hi0 : (i 0).val < 2048 := (i 0).isLt
  have hi1 : (i 1).val < 2048 := (i 1).isLt
  have hlt : 8 * ((i 0).val / 256) + 7 < cfg0.N := by omega
  refine ⟨(⟨8 * ((i 0).val / 256) + 7, hlt⟩ : Fin cfg0.N), (flush0_7 _).mpr (by show (8 * ((i 0).val / 256) + 7) % 8 = 7; omega), ?_⟩
  obtain ⟨e0, e1, -⟩ := out_index_facts (⟨8 * ((i 0).val / 256) + 7, hlt⟩ : Fin cfg0.N)
  show i ∈ ((View.whole main_v8_0).slice (win0_7.rect (⟨8 * ((i 0).val / 256) + 7, hlt⟩ : Fin cfg0.N))).set
  rw [View.set_slice_whole, Rect.mem_set_unit]
  intro a
  match a with
  | ⟨0, _⟩ =>
    show win0_7.index (⟨8 * ((i 0).val / 256) + 7, hlt⟩ : Fin cfg0.N) (0 : Fin 2) * 256 ≤ (i 0).val ∧ (i 0).val < win0_7.index (⟨8 * ((i 0).val / 256) + 7, hlt⟩ : Fin cfg0.N) (0 : Fin 2) * 256 + 256
    rw [e0]; show (8 * ((i 0).val / 256) + 7) / 8 * 256 ≤ (i 0).val ∧ (i 0).val < (8 * ((i 0).val / 256) + 7) / 8 * 256 + 256; omega
  | ⟨1, _⟩ =>
    show win0_7.index (⟨8 * ((i 0).val / 256) + 7, hlt⟩ : Fin cfg0.N) (1 : Fin 2) * 2048 ≤ (i 1).val ∧ (i 1).val < win0_7.index (⟨8 * ((i 0).val / 256) + 7, hlt⟩ : Fin cfg0.N) (1 : Fin 2) * 2048 + 2048
    rw [e1]; omega

/-- So after the run the result array for the new hidden state is the reference's. -/
theorem final_hidden (c : Dev nD) : (dats m 0 c).arrAt 7 cfg0.N = (Cert.ReferenceIdeal.Read.val_main_v38 (F := Ideal) (Blocks.inX m c) (Blocks.inH m c) (Blocks.inC m c) (Blocks.inWi m c) (Blocks.inBi m c) (Blocks.inWh m c) (Blocks.inBh m c)) :=
  (dats m 0 c).arrAt_eq_of_cover 7 (Cert.ReferenceIdeal.Read.val_main_v38 (F := Ideal) (Blocks.inX m c) (Blocks.inH m c) (Blocks.inC m c) (Blocks.inWi m c) (Blocks.inBi m c) (Blocks.inWh m c) (Blocks.inBh m c)) (flushed_hidden m c) (cover_hidden c)

/-! ## Output window 8: the new cell state -/

/-- What the last step of a batch tile writes back for the new cell state is the tile's rows of the reference's result. -/
theorem flushed_cell (c : Dev nD) (t : Fin cfg0.N) (hf : (cfg0.win 8).flush t = true) :
    (dats m 0 c).flushed 8 t = ((cfg0.win 8).blk t).view.read (Elt Ideal) (Cert.ReferenceIdeal.Read.val_main_v36 (F := Ideal) (Blocks.inX m c) (Blocks.inH m c) (Blocks.inC m c) (Blocks.inWi m c) (Blocks.inBi m c) (Blocks.inWh m c) (Blocks.inBh m c)) := by
  have h7 : t.val % 8 = 7 := (flush0_8 t).mp hf
  have h0 : ¬t.val % 8 = 0 := by omega
  have hN : cfg0.N = 64 := N_0
  have ht := t.isLt
  obtain ⟨-, -, e0, e1, -⟩ := out_index_facts t
  have key : ∀ y : S256x2048.Idx, (k0_pay7 (F := Ideal) ((outsAt0 m c t.val t.isLt).2.2.2.2.2.2) (iblk m c 6 t)) y
      = (Cert.ReferenceIdeal.Read.val_main_v36 (F := Ideal) (Blocks.inX m c) (Blocks.inH m c) (Blocks.inC m c) (Blocks.inWi m c) (Blocks.inBi m c) (Blocks.inWh m c) (Blocks.inBh m c)) (ix2 (at8 (tileOf t.val) (y 0)) (y 1)) := fun y => by
    obtain ⟨ρ', k, rfl⟩ : ∃ (ρ' : Fin 256) (k : Fin 2048), y = ix2 ρ' k := ⟨y 0, y 1, eq_ix2 y⟩
    exact Cert.Lstm.Tile.newCell_eq (Blocks.inX m c) (Blocks.inH m c) (Blocks.inC m c) (Blocks.inWi m c) (Blocks.inBi m c) (Blocks.inWh m c) (Blocks.inBh m c) (tileOf t.val) ((outsAt0 m c t.val t.isLt).2.2.2.2.2.2) (iblk m c 6 t) (fun ρ' n => Running.completed_apply m c t h7 ρ' n) (fun ρ' k => Blocks.block_cell m c t ρ' k) ρ' k
  rw [Value.flushed8_C m c t h0 h7, Found.last_cell c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.2, ← carried_last m c t h0 h7]
  funext j
  refine (key ((cfg0.win 8).xinj (grid0.coords t) j)).trans (congrArg _ (funext fun a => Fin.ext ?_))
  match a with
  | ⟨0, _⟩ => show 256 * (t.val / 8 % 8) + (j 0).val = win0_8.index t (0 : Fin 2) * 256 + 1 * (j 0).val; rw [e0]; omega
  | ⟨1, _⟩ => show (j 1).val = win0_8.index t (1 : Fin 2) * 2048 + 1 * (j 1).val; rw [e1]; omega

/-- Every position of the result array lies in the block some batch tile's last step writes back. -/
theorem cover_cell (c : Dev nD) (i : S2048x2048.Idx) :
    ∃ t : Fin cfg0.N, (cfg0.win 8).flush t = true ∧ i ∈ ((cfg0.win 8).blk t).view.set := by
  have hN : cfg0.N = 64 := N_0
  have hi0 : (i 0).val < 2048 := (i 0).isLt
  have hi1 : (i 1).val < 2048 := (i 1).isLt
  have hlt : 8 * ((i 0).val / 256) + 7 < cfg0.N := by omega
  refine ⟨(⟨8 * ((i 0).val / 256) + 7, hlt⟩ : Fin cfg0.N), (flush0_8 _).mpr (by show (8 * ((i 0).val / 256) + 7) % 8 = 7; omega), ?_⟩
  obtain ⟨-, -, e0, e1, -⟩ := out_index_facts (⟨8 * ((i 0).val / 256) + 7, hlt⟩ : Fin cfg0.N)
  show i ∈ ((View.whole main_v8_1).slice (win0_8.rect (⟨8 * ((i 0).val / 256) + 7, hlt⟩ : Fin cfg0.N))).set
  rw [View.set_slice_whole, Rect.mem_set_unit]
  intro a
  match a with
  | ⟨0, _⟩ =>
    show win0_8.index (⟨8 * ((i 0).val / 256) + 7, hlt⟩ : Fin cfg0.N) (0 : Fin 2) * 256 ≤ (i 0).val ∧ (i 0).val < win0_8.index (⟨8 * ((i 0).val / 256) + 7, hlt⟩ : Fin cfg0.N) (0 : Fin 2) * 256 + 256
    rw [e0]; show (8 * ((i 0).val / 256) + 7) / 8 * 256 ≤ (i 0).val ∧ (i 0).val < (8 * ((i 0).val / 256) + 7) / 8 * 256 + 256; omega
  | ⟨1, _⟩ =>
    show win0_8.index (⟨8 * ((i 0).val / 256) + 7, hlt⟩ : Fin cfg0.N) (1 : Fin 2) * 2048 ≤ (i 1).val ∧ (i 1).val < win0_8.index (⟨8 * ((i 0).val / 256) + 7, hlt⟩ : Fin cfg0.N) (1 : Fin 2) * 2048 + 2048
    rw [e1]; omega

/-- So after the run the result array for the new cell state is the reference's. -/
theorem final_cell (c : Dev nD) : (dats m 0 c).arrAt 8 cfg0.N = (Cert.ReferenceIdeal.Read.val_main_v36 (F := Ideal) (Blocks.inX m c) (Blocks.inH m c) (Blocks.inC m c) (Blocks.inWi m c) (Blocks.inBi m c) (Blocks.inWh m c) (Blocks.inBh m c)) :=
  (dats m 0 c).arrAt_eq_of_cover 8 (Cert.ReferenceIdeal.Read.val_main_v36 (F := Ideal) (Blocks.inX m c) (Blocks.inH m c) (Blocks.inC m c) (Blocks.inWi m c) (Blocks.inBi m c) (Blocks.inWh m c) (Blocks.inBh m c)) (flushed_cell m c) (cover_cell c)

/-! ## Output window 9: the forget gate -/

/-- What the last step of a batch tile writes back for the forget gate is the tile's rows of the reference's result. -/
theorem flushed_forget (c : Dev nD) (t : Fin cfg0.N) (hf : (cfg0.win 9).flush t = true) :
    (dats m 0 c).flushed 9 t = ((cfg0.win 9).blk t).view.read (Elt Ideal) (Cert.ReferenceIdeal.Read.val_main_v26 (F := Ideal) (Blocks.inX m c) (Blocks.inH m c) (Blocks.inWi m c) (Blocks.inBi m c) (Blocks.inWh m c) (Blocks.inBh m c)) := by
  have h7 : t.val % 8 = 7 := (flush0_9 t).mp hf
  have h0 : ¬t.val % 8 = 0 := by omega
  have hN : cfg0.N = 64 := N_0
  have ht := t.isLt
  obtain ⟨-, -, -, -, e0, e1, -⟩ := out_index_facts t
  have key : ∀ y : S256x2048.Idx, (k0_pay4 (F := Ideal) ((outsAt0 m c t.val t.isLt).2.2.2.2.2.2)) y
      = (Cert.ReferenceIdeal.Read.val_main_v26 (F := Ideal) (Blocks.inX m c) (Blocks.inH m c) (Blocks.inWi m c) (Blocks.inBi m c) (Blocks.inWh m c) (Blocks.inBh m c)) (ix2 (at8 (tileOf t.val) (y 0)) (y 1)) := fun y => by
    obtain ⟨ρ', k, rfl⟩ : ∃ (ρ' : Fin 256) (k : Fin 2048), y = ix2 ρ' k := ⟨y 0, y 1, eq_ix2 y⟩
    exact Cert.Lstm.Tile.forget_eq (Blocks.inX m c) (Blocks.inH m c) (Blocks.inWi m c) (Blocks.inBi m c) (Blocks.inWh m c) (Blocks.inBh m c) (tileOf t.val) ((outsAt0 m c t.val t.isLt).2.2.2.2.2.2) (fun ρ' n => Running.completed_apply m c t h7 ρ' n) ρ' k
  rw [Value.flushed9_C m c t h0 h7, Found.last_forget c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.2, ← carried_last m c t h0 h7]
  funext j
  refine (key ((cfg0.win 9).xinj (grid0.coords t) j)).trans (congrArg _ (funext fun a => Fin.ext ?_))
  match a with
  | ⟨0, _⟩ => show 256 * (t.val / 8 % 8) + (j 0).val = win0_9.index t (0 : Fin 2) * 256 + 1 * (j 0).val; rw [e0]; omega
  | ⟨1, _⟩ => show (j 1).val = win0_9.index t (1 : Fin 2) * 2048 + 1 * (j 1).val; rw [e1]; omega

/-- Every position of the result array lies in the block some batch tile's last step writes back. -/
theorem cover_forget (c : Dev nD) (i : S2048x2048.Idx) :
    ∃ t : Fin cfg0.N, (cfg0.win 9).flush t = true ∧ i ∈ ((cfg0.win 9).blk t).view.set := by
  have hN : cfg0.N = 64 := N_0
  have hi0 : (i 0).val < 2048 := (i 0).isLt
  have hi1 : (i 1).val < 2048 := (i 1).isLt
  have hlt : 8 * ((i 0).val / 256) + 7 < cfg0.N := by omega
  refine ⟨(⟨8 * ((i 0).val / 256) + 7, hlt⟩ : Fin cfg0.N), (flush0_9 _).mpr (by show (8 * ((i 0).val / 256) + 7) % 8 = 7; omega), ?_⟩
  obtain ⟨-, -, -, -, e0, e1, -⟩ := out_index_facts (⟨8 * ((i 0).val / 256) + 7, hlt⟩ : Fin cfg0.N)
  show i ∈ ((View.whole main_v8_2).slice (win0_9.rect (⟨8 * ((i 0).val / 256) + 7, hlt⟩ : Fin cfg0.N))).set
  rw [View.set_slice_whole, Rect.mem_set_unit]
  intro a
  match a with
  | ⟨0, _⟩ =>
    show win0_9.index (⟨8 * ((i 0).val / 256) + 7, hlt⟩ : Fin cfg0.N) (0 : Fin 2) * 256 ≤ (i 0).val ∧ (i 0).val < win0_9.index (⟨8 * ((i 0).val / 256) + 7, hlt⟩ : Fin cfg0.N) (0 : Fin 2) * 256 + 256
    rw [e0]; show (8 * ((i 0).val / 256) + 7) / 8 * 256 ≤ (i 0).val ∧ (i 0).val < (8 * ((i 0).val / 256) + 7) / 8 * 256 + 256; omega
  | ⟨1, _⟩ =>
    show win0_9.index (⟨8 * ((i 0).val / 256) + 7, hlt⟩ : Fin cfg0.N) (1 : Fin 2) * 2048 ≤ (i 1).val ∧ (i 1).val < win0_9.index (⟨8 * ((i 0).val / 256) + 7, hlt⟩ : Fin cfg0.N) (1 : Fin 2) * 2048 + 2048
    rw [e1]; omega

/-- So after the run the result array for the forget gate is the reference's. -/
theorem final_forget (c : Dev nD) : (dats m 0 c).arrAt 9 cfg0.N = (Cert.ReferenceIdeal.Read.val_main_v26 (F := Ideal) (Blocks.inX m c) (Blocks.inH m c) (Blocks.inWi m c) (Blocks.inBi m c) (Blocks.inWh m c) (Blocks.inBh m c)) :=
  (dats m 0 c).arrAt_eq_of_cover 9 (Cert.ReferenceIdeal.Read.val_main_v26 (F := Ideal) (Blocks.inX m c) (Blocks.inH m c) (Blocks.inWi m c) (Blocks.inBi m c) (Blocks.inWh m c) (Blocks.inBh m c)) (flushed_forget m c) (cover_forget c)

/-! ## Output window 10: the input gate -/

/-- What the last step of a batch tile writes back for the input gate is the tile's rows of the reference's result. -/
theorem flushed_input (c : Dev nD) (t : Fin cfg0.N) (hf : (cfg0.win 10).flush t = true) :
    (dats m 0 c).flushed 10 t = ((cfg0.win 10).blk t).view.read (Elt Ideal) (Cert.ReferenceIdeal.Read.val_main_v20 (F := Ideal) (Blocks.inX m c) (Blocks.inH m c) (Blocks.inWi m c) (Blocks.inBi m c) (Blocks.inWh m c) (Blocks.inBh m c)) := by
  have h7 : t.val % 8 = 7 := (flush0_10 t).mp hf
  have h0 : ¬t.val % 8 = 0 := by omega
  have hN : cfg0.N = 64 := N_0
  have ht := t.isLt
  obtain ⟨-, -, -, -, -, -, e0, e1, -⟩ := out_index_facts t
  have key : ∀ y : S256x2048.Idx, (k0_pay3 (F := Ideal) ((outsAt0 m c t.val t.isLt).2.2.2.2.2.2)) y
      = (Cert.ReferenceIdeal.Read.val_main_v20 (F := Ideal) (Blocks.inX m c) (Blocks.inH m c) (Blocks.inWi m c) (Blocks.inBi m c) (Blocks.inWh m c) (Blocks.inBh m c)) (ix2 (at8 (tileOf t.val) (y 0)) (y 1)) := fun y => by
    obtain ⟨ρ', k, rfl⟩ : ∃ (ρ' : Fin 256) (k : Fin 2048), y = ix2 ρ' k := ⟨y 0, y 1, eq_ix2 y⟩
    exact Cert.Lstm.Tile.input_eq (Blocks.inX m c) (Blocks.inH m c) (Blocks.inWi m c) (Blocks.inBi m c) (Blocks.inWh m c) (Blocks.inBh m c) (tileOf t.val) ((outsAt0 m c t.val t.isLt).2.2.2.2.2.2) (fun ρ' n => Running.completed_apply m c t h7 ρ' n) ρ' k
  rw [Value.flushed10_C m c t h0 h7, Found.last_input c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.2, ← carried_last m c t h0 h7]
  funext j
  refine (key ((cfg0.win 10).xinj (grid0.coords t) j)).trans (congrArg _ (funext fun a => Fin.ext ?_))
  match a with
  | ⟨0, _⟩ => show 256 * (t.val / 8 % 8) + (j 0).val = win0_10.index t (0 : Fin 2) * 256 + 1 * (j 0).val; rw [e0]; omega
  | ⟨1, _⟩ => show (j 1).val = win0_10.index t (1 : Fin 2) * 2048 + 1 * (j 1).val; rw [e1]; omega

/-- Every position of the result array lies in the block some batch tile's last step writes back. -/
theorem cover_input (c : Dev nD) (i : S2048x2048.Idx) :
    ∃ t : Fin cfg0.N, (cfg0.win 10).flush t = true ∧ i ∈ ((cfg0.win 10).blk t).view.set := by
  have hN : cfg0.N = 64 := N_0
  have hi0 : (i 0).val < 2048 := (i 0).isLt
  have hi1 : (i 1).val < 2048 := (i 1).isLt
  have hlt : 8 * ((i 0).val / 256) + 7 < cfg0.N := by omega
  refine ⟨(⟨8 * ((i 0).val / 256) + 7, hlt⟩ : Fin cfg0.N), (flush0_10 _).mpr (by show (8 * ((i 0).val / 256) + 7) % 8 = 7; omega), ?_⟩
  obtain ⟨-, -, -, -, -, -, e0, e1, -⟩ := out_index_facts (⟨8 * ((i 0).val / 256) + 7, hlt⟩ : Fin cfg0.N)
  show i ∈ ((View.whole main_v8_3).slice (win0_10.rect (⟨8 * ((i 0).val / 256) + 7, hlt⟩ : Fin cfg0.N))).set
  rw [View.set_slice_whole, Rect.mem_set_unit]
  intro a
  match a with
  | ⟨0, _⟩ =>
    show win0_10.index (⟨8 * ((i 0).val / 256) + 7, hlt⟩ : Fin cfg0.N) (0 : Fin 2) * 256 ≤ (i 0).val ∧ (i 0).val < win0_10.index (⟨8 * ((i 0).val / 256) + 7, hlt⟩ : Fin cfg0.N) (0 : Fin 2) * 256 + 256
    rw [e0]; show (8 * ((i 0).val / 256) + 7) / 8 * 256 ≤ (i 0).val ∧ (i 0).val < (8 * ((i 0).val / 256) + 7) / 8 * 256 + 256; omega
  | ⟨1, _⟩ =>
    show win0_10.index (⟨8 * ((i 0).val / 256) + 7, hlt⟩ : Fin cfg0.N) (1 : Fin 2) * 2048 ≤ (i 1).val ∧ (i 1).val < win0_10.index (⟨8 * ((i 0).val / 256) + 7, hlt⟩ : Fin cfg0.N) (1 : Fin 2) * 2048 + 2048
    rw [e1]; omega

/-- So after the run the result array for the input gate is the reference's. -/
theorem final_input (c : Dev nD) : (dats m 0 c).arrAt 10 cfg0.N = (Cert.ReferenceIdeal.Read.val_main_v20 (F := Ideal) (Blocks.inX m c) (Blocks.inH m c) (Blocks.inWi m c) (Blocks.inBi m c) (Blocks.inWh m c) (Blocks.inBh m c)) :=
  (dats m 0 c).arrAt_eq_of_cover 10 (Cert.ReferenceIdeal.Read.val_main_v20 (F := Ideal) (Blocks.inX m c) (Blocks.inH m c) (Blocks.inWi m c) (Blocks.inBi m c) (Blocks.inWh m c) (Blocks.inBh m c)) (flushed_input m c) (cover_input c)

/-! ## Output window 11: the candidate -/

/-- What the last step of a batch tile writes back for the candidate is the tile's rows of the reference's result. -/
theorem flushed_candidate (c : Dev nD) (t : Fin cfg0.N) (hf : (cfg0.win 11).flush t = true) :
    (dats m 0 c).flushed 11 t = ((cfg0.win 11).blk t).view.read (Elt Ideal) (Cert.ReferenceIdeal.Read.val_main_v27 (F := Ideal) (Blocks.inX m c) (Blocks.inH m c) (Blocks.inWi m c) (Blocks.inBi m c) (Blocks.inWh m c) (Blocks.inBh m c)) := by
  have h7 : t.val % 8 = 7 := (flush0_11 t).mp hf
  have h0 : ¬t.val % 8 = 0 := by omega
  have hN : cfg0.N = 64 := N_0
  have ht := t.isLt
  obtain ⟨-, -, -, -, -, -, -, -, e0, e1, -⟩ := out_index_facts t
  have key : ∀ y : S256x2048.Idx, (k0_pay5 (F := Ideal) ((outsAt0 m c t.val t.isLt).2.2.2.2.2.2)) y
      = (Cert.ReferenceIdeal.Read.val_main_v27 (F := Ideal) (Blocks.inX m c) (Blocks.inH m c) (Blocks.inWi m c) (Blocks.inBi m c) (Blocks.inWh m c) (Blocks.inBh m c)) (ix2 (at8 (tileOf t.val) (y 0)) (y 1)) := fun y => by
    obtain ⟨ρ', k, rfl⟩ : ∃ (ρ' : Fin 256) (k : Fin 2048), y = ix2 ρ' k := ⟨y 0, y 1, eq_ix2 y⟩
    exact Cert.Lstm.Tile.candidate_eq (Blocks.inX m c) (Blocks.inH m c) (Blocks.inWi m c) (Blocks.inBi m c) (Blocks.inWh m c) (Blocks.inBh m c) (tileOf t.val) ((outsAt0 m c t.val t.isLt).2.2.2.2.2.2) (fun ρ' n => Running.completed_apply m c t h7 ρ' n) ρ' k
  rw [Value.flushed11_C m c t h0 h7, Found.last_candidate c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.2, ← carried_last m c t h0 h7]
  funext j
  refine (key ((cfg0.win 11).xinj (grid0.coords t) j)).trans (congrArg _ (funext fun a => Fin.ext ?_))
  match a with
  | ⟨0, _⟩ => show 256 * (t.val / 8 % 8) + (j 0).val = win0_11.index t (0 : Fin 2) * 256 + 1 * (j 0).val; rw [e0]; omega
  | ⟨1, _⟩ => show (j 1).val = win0_11.index t (1 : Fin 2) * 2048 + 1 * (j 1).val; rw [e1]; omega

/-- Every position of the result array lies in the block some batch tile's last step writes back. -/
theorem cover_candidate (c : Dev nD) (i : S2048x2048.Idx) :
    ∃ t : Fin cfg0.N, (cfg0.win 11).flush t = true ∧ i ∈ ((cfg0.win 11).blk t).view.set := by
  have hN : cfg0.N = 64 := N_0
  have hi0 : (i 0).val < 2048 := (i 0).isLt
  have hi1 : (i 1).val < 2048 := (i 1).isLt
  have hlt : 8 * ((i 0).val / 256) + 7 < cfg0.N := by omega
  refine ⟨(⟨8 * ((i 0).val / 256) + 7, hlt⟩ : Fin cfg0.N), (flush0_11 _).mpr (by show (8 * ((i 0).val / 256) + 7) % 8 = 7; omega), ?_⟩
  obtain ⟨-, -, -, -, -, -, -, -, e0, e1, -⟩ := out_index_facts (⟨8 * ((i 0).val / 256) + 7, hlt⟩ : Fin cfg0.N)
  show i ∈ ((View.whole main_v8_4).slice (win0_11.rect (⟨8 * ((i 0).val / 256) + 7, hlt⟩ : Fin cfg0.N))).set
  rw [View.set_slice_whole, Rect.mem_set_unit]
  intro a
  match a with
  | ⟨0, _⟩ =>
    show win0_11.index (⟨8 * ((i 0).val / 256) + 7, hlt⟩ : Fin cfg0.N) (0 : Fin 2) * 256 ≤ (i 0).val ∧ (i 0).val < win0_11.index (⟨8 * ((i 0).val / 256) + 7, hlt⟩ : Fin cfg0.N) (0 : Fin 2) * 256 + 256
    rw [e0]; show (8 * ((i 0).val / 256) + 7) / 8 * 256 ≤ (i 0).val ∧ (i 0).val < (8 * ((i 0).val / 256) + 7) / 8 * 256 + 256; omega
  | ⟨1, _⟩ =>
    show win0_11.index (⟨8 * ((i 0).val / 256) + 7, hlt⟩ : Fin cfg0.N) (1 : Fin 2) * 2048 ≤ (i 1).val ∧ (i 1).val < win0_11.index (⟨8 * ((i 0).val / 256) + 7, hlt⟩ : Fin cfg0.N) (1 : Fin 2) * 2048 + 2048
    rw [e1]; omega

/-- So after the run the result array for the candidate is the reference's. -/
theorem final_candidate (c : Dev nD) : (dats m 0 c).arrAt 11 cfg0.N = (Cert.ReferenceIdeal.Read.val_main_v27 (F := Ideal) (Blocks.inX m c) (Blocks.inH m c) (Blocks.inWi m c) (Blocks.inBi m c) (Blocks.inWh m c) (Blocks.inBh m c)) :=
  (dats m 0 c).arrAt_eq_of_cover 11 (Cert.ReferenceIdeal.Read.val_main_v27 (F := Ideal) (Blocks.inX m c) (Blocks.inH m c) (Blocks.inWi m c) (Blocks.inBi m c) (Blocks.inWh m c) (Blocks.inBh m c)) (flushed_candidate m c) (cover_candidate c)

/-! ## Output window 12: the output gate -/

/-- What the last step of a batch tile writes back for the output gate is the tile's rows of the reference's result. -/
theorem flushed_output (c : Dev nD) (t : Fin cfg0.N) (hf : (cfg0.win 12).flush t = true) :
    (dats m 0 c).flushed 12 t = ((cfg0.win 12).blk t).view.read (Elt Ideal) (Cert.ReferenceIdeal.Read.val_main_v33 (F := Ideal) (Blocks.inX m c) (Blocks.inH m c) (Blocks.inWi m c) (Blocks.inBi m c) (Blocks.inWh m c) (Blocks.inBh m c)) := by
  have h7 : t.val % 8 = 7 := (flush0_12 t).mp hf
  have h0 : ¬t.val % 8 = 0 := by omega
  have hN : cfg0.N = 64 := N_0
  have ht := t.isLt
  obtain ⟨-, -, -, -, -, -, -, -, -, -, e0, e1⟩ := out_index_facts t
  have key : ∀ y : S256x2048.Idx, (k0_pay6 (F := Ideal) ((outsAt0 m c t.val t.isLt).2.2.2.2.2.2)) y
      = (Cert.ReferenceIdeal.Read.val_main_v33 (F := Ideal) (Blocks.inX m c) (Blocks.inH m c) (Blocks.inWi m c) (Blocks.inBi m c) (Blocks.inWh m c) (Blocks.inBh m c)) (ix2 (at8 (tileOf t.val) (y 0)) (y 1)) := fun y => by
    obtain ⟨ρ', k, rfl⟩ : ∃ (ρ' : Fin 256) (k : Fin 2048), y = ix2 ρ' k := ⟨y 0, y 1, eq_ix2 y⟩
    exact Cert.Lstm.Tile.output_eq (Blocks.inX m c) (Blocks.inH m c) (Blocks.inWi m c) (Blocks.inBi m c) (Blocks.inWh m c) (Blocks.inBh m c) (tileOf t.val) ((outsAt0 m c t.val t.isLt).2.2.2.2.2.2) (fun ρ' n => Running.completed_apply m c t h7 ρ' n) ρ' k
  rw [Value.flushed12_C m c t h0 h7, Found.last_output c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.2, ← carried_last m c t h0 h7]
  funext j
  refine (key ((cfg0.win 12).xinj (grid0.coords t) j)).trans (congrArg _ (funext fun a => Fin.ext ?_))
  match a with
  | ⟨0, _⟩ => show 256 * (t.val / 8 % 8) + (j 0).val = win0_12.index t (0 : Fin 2) * 256 + 1 * (j 0).val; rw [e0]; omega
  | ⟨1, _⟩ => show (j 1).val = win0_12.index t (1 : Fin 2) * 2048 + 1 * (j 1).val; rw [e1]; omega

/-- Every position of the result array lies in the block some batch tile's last step writes back. -/
theorem cover_output (c : Dev nD) (i : S2048x2048.Idx) :
    ∃ t : Fin cfg0.N, (cfg0.win 12).flush t = true ∧ i ∈ ((cfg0.win 12).blk t).view.set := by
  have hN : cfg0.N = 64 := N_0
  have hi0 : (i 0).val < 2048 := (i 0).isLt
  have hi1 : (i 1).val < 2048 := (i 1).isLt
  have hlt : 8 * ((i 0).val / 256) + 7 < cfg0.N := by omega
  refine ⟨(⟨8 * ((i 0).val / 256) + 7, hlt⟩ : Fin cfg0.N), (flush0_12 _).mpr (by show (8 * ((i 0).val / 256) + 7) % 8 = 7; omega), ?_⟩
  obtain ⟨-, -, -, -, -, -, -, -, -, -, e0, e1⟩ := out_index_facts (⟨8 * ((i 0).val / 256) + 7, hlt⟩ : Fin cfg0.N)
  show i ∈ ((View.whole main_v8_5).slice (win0_12.rect (⟨8 * ((i 0).val / 256) + 7, hlt⟩ : Fin cfg0.N))).set
  rw [View.set_slice_whole, Rect.mem_set_unit]
  intro a
  match a with
  | ⟨0, _⟩ =>
    show win0_12.index (⟨8 * ((i 0).val / 256) + 7, hlt⟩ : Fin cfg0.N) (0 : Fin 2) * 256 ≤ (i 0).val ∧ (i 0).val < win0_12.index (⟨8 * ((i 0).val / 256) + 7, hlt⟩ : Fin cfg0.N) (0 : Fin 2) * 256 + 256
    rw [e0]; show (8 * ((i 0).val / 256) + 7) / 8 * 256 ≤ (i 0).val ∧ (i 0).val < (8 * ((i 0).val / 256) + 7) / 8 * 256 + 256; omega
  | ⟨1, _⟩ =>
    show win0_12.index (⟨8 * ((i 0).val / 256) + 7, hlt⟩ : Fin cfg0.N) (1 : Fin 2) * 2048 ≤ (i 1).val ∧ (i 1).val < win0_12.index (⟨8 * ((i 0).val / 256) + 7, hlt⟩ : Fin cfg0.N) (1 : Fin 2) * 2048 + 2048
    rw [e1]; omega

/-- So after the run the result array for the output gate is the reference's. -/
theorem final_output (c : Dev nD) : (dats m 0 c).arrAt 12 cfg0.N = (Cert.ReferenceIdeal.Read.val_main_v33 (F := Ideal) (Blocks.inX m c) (Blocks.inH m c) (Blocks.inWi m c) (Blocks.inBi m c) (Blocks.inWh m c) (Blocks.inBh m c)) :=
  (dats m 0 c).arrAt_eq_of_cover 12 (Cert.ReferenceIdeal.Read.val_main_v33 (F := Ideal) (Blocks.inX m c) (Blocks.inH m c) (Blocks.inWi m c) (Blocks.inBi m c) (Blocks.inWh m c) (Blocks.inBh m c)) (flushed_output m c) (cover_output c)

/-! ## The run -/

/-- Every weakly fair execution of the kernel's program terminates with the six result arrays at the reference's six
    results of the arguments, and the arguments unchanged. -/
theorem run : θ_run defs (onTc (τ := τ) (main (F := Ideal))) ⟨m, fun _ => 0, ρ⟩ fun r => ∀ c : Dev nD,
      r.2.mem ((c : Thread nD τ).loc main_v8_0) = (Cert.ReferenceIdeal.Read.val_main_v38 (F := Ideal) (Blocks.inX m c) (Blocks.inH m c) (Blocks.inC m c) (Blocks.inWi m c) (Blocks.inBi m c) (Blocks.inWh m c) (Blocks.inBh m c))
      ∧       r.2.mem ((c : Thread nD τ).loc main_v8_1) = (Cert.ReferenceIdeal.Read.val_main_v36 (F := Ideal) (Blocks.inX m c) (Blocks.inH m c) (Blocks.inC m c) (Blocks.inWi m c) (Blocks.inBi m c) (Blocks.inWh m c) (Blocks.inBh m c))
      ∧       r.2.mem ((c : Thread nD τ).loc main_v8_2) = (Cert.ReferenceIdeal.Read.val_main_v26 (F := Ideal) (Blocks.inX m c) (Blocks.inH m c) (Blocks.inWi m c) (Blocks.inBi m c) (Blocks.inWh m c) (Blocks.inBh m c))
      ∧       r.2.mem ((c : Thread nD τ).loc main_v8_3) = (Cert.ReferenceIdeal.Read.val_main_v20 (F := Ideal) (Blocks.inX m c) (Blocks.inH m c) (Blocks.inWi m c) (Blocks.inBi m c) (Blocks.inWh m c) (Blocks.inBh m c))
      ∧       r.2.mem ((c : Thread nD τ).loc main_v8_4) = (Cert.ReferenceIdeal.Read.val_main_v27 (F := Ideal) (Blocks.inX m c) (Blocks.inH m c) (Blocks.inWi m c) (Blocks.inBi m c) (Blocks.inWh m c) (Blocks.inBh m c))
      ∧       r.2.mem ((c : Thread nD τ).loc main_v8_5) = (Cert.ReferenceIdeal.Read.val_main_v33 (F := Ideal) (Blocks.inX m c) (Blocks.inH m c) (Blocks.inWi m c) (Blocks.inBi m c) (Blocks.inWh m c) (Blocks.inBh m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_hidden m c),
      (h c).2.1.trans (final_cell m c),
      (h c).2.2.1.trans (final_forget m c),
      (h c).2.2.2.1.trans (final_input m c),
      (h c).2.2.2.2.1.trans (final_candidate m c),
      (h c).2.2.2.2.2.1.trans (final_output m c),
      (h c).2.2.2.2.2.2⟩)
    (Value.run_blocks m ρ)

end Cert.KernelIdeal.Final

end
-- ==== Proof.lean ====
/-
  One step of an LSTM cell: the Pallas kernel against its jnp reference, over the extended reals.

  Both programs compute, for 2048 batch rows and 2048 hidden units, the 8192 gate pre-activations
  x·W_ihᵀ + b_ih + h·W_hhᵀ + b_hh, the input, forget and output gates by the logistic function and the candidate by tanh
  of their four column ranges, the new cell state forget · C + input · candidate and the new hidden state
  output · tanh(new cell).  The kernel accumulates the pre-activations over eight contraction steps of 256 positions,
  starting from the sum of the two biases, in a block carried between grid points, and applies the gates at the last
  step; its rounding of inputs and weights to bf16 is the identity on the extended reals.  The two agree because
  addition of extended reals is commutative and associative: no cancellation or distribution is used, so the
  finiteness of the inputs is never needed for the value.

  Proof/Algebra.lean has that law; Proof/Stored.lean, Proof/Found.lean and Proof/Blocks.lean read the body's stores and
  the pipeline's blocks as values; Proof/Running.lean shows the carried block ends at the reference's pre-activations;
  Proof/RefCell.lean and Proof/Tile.lean compare the six results position by position; Proof/Final.lean reads the six
  result arrays off the run.  The three frames are the generated ones (the reference's is its generated run with the
  results dropped); the idealization rewrote nothing.
-/
import proofs.«157634_j49675591746256_2_alg».proof.Defs
import proofs.«157634_j49675591746256_2_alg».proof.Proof.Gen.Kernel
import proofs.«157634_j49675591746256_2_alg».proof.Proof.Gen.Kernel.Skeleton
import proofs.«157634_j49675591746256_2_alg».proof.Proof.Gen.Kernel.Launch
import proofs.«157634_j49675591746256_2_alg».proof.Proof.Gen.Kernel.Points
import proofs.«157634_j49675591746256_2_alg».proof.Proof.Gen.Kernel.Frame
import proofs.«157634_j49675591746256_2_alg».proof.Proof.Gen.KernelIdeal
import proofs.«157634_j49675591746256_2_alg».proof.Proof.Gen.KernelIdeal.Skeleton
import proofs.«157634_j49675591746256_2_alg».proof.Proof.Gen.KernelIdeal.Launch
import proofs.«157634_j49675591746256_2_alg».proof.Proof.Gen.KernelIdeal.Points
import proofs.«157634_j49675591746256_2_alg».proof.Proof.Gen.KernelIdeal.Frame
import proofs.«157634_j49675591746256_2_alg».proof.Proof.Gen.ReferenceIdeal
import proofs.«157634_j49675591746256_2_alg».proof.Proof.Gen.Pre_finite_inputs
import proofs.«157634_j49675591746256_2_alg».proof.Proof.Gen.KernelIdeal.Value
import proofs.«157634_j49675591746256_2_alg».proof.Proof.Gen.ReferenceIdeal.Run
import proofs.«157634_j49675591746256_2_alg».proof.Proof.Gen.ReferenceIdeal.Read
import proofs.«157634_j49675591746256_2_alg».proof.Proof.Final
import Idealize.ShloMosaic.Adequacy
import Idealize.ShloMosaic.Init

noncomputable section

namespace Cert.Proof

open Idealize.ShloMosaic Idealize.ShloMosaic.TcCoe Idealize.SL.Sem

/-- From memories agreeing on the seven arguments both programs end with the same six result arrays: the kernel's
    run leaves the reference's six results of its own arguments, and the reference's run its results of arguments
    that are the same arrays. -/
theorem algebraic : Cert.algebraic_KernelIdeal_ReferenceIdeal := by
  intro m ρ m' ρ' _ hagree
  refine ⟨fun c => Cert.ReferenceIdeal.Read.val_main_v38 (F := Ideal) (Cert.KernelIdeal.Blocks.inX m c) (Cert.KernelIdeal.Blocks.inH m c) (Cert.KernelIdeal.Blocks.inC m c) (Cert.KernelIdeal.Blocks.inWi m c) (Cert.KernelIdeal.Blocks.inBi m c) (Cert.KernelIdeal.Blocks.inWh m c) (Cert.KernelIdeal.Blocks.inBh m c),
    fun c => Cert.ReferenceIdeal.Read.val_main_v36 (F := Ideal) (Cert.KernelIdeal.Blocks.inX m c) (Cert.KernelIdeal.Blocks.inH m c) (Cert.KernelIdeal.Blocks.inC m c) (Cert.KernelIdeal.Blocks.inWi m c) (Cert.KernelIdeal.Blocks.inBi m c) (Cert.KernelIdeal.Blocks.inWh m c) (Cert.KernelIdeal.Blocks.inBh m c),
    fun c => Cert.ReferenceIdeal.Read.val_main_v26 (F := Ideal) (Cert.KernelIdeal.Blocks.inX m c) (Cert.KernelIdeal.Blocks.inH m c) (Cert.KernelIdeal.Blocks.inWi m c) (Cert.KernelIdeal.Blocks.inBi m c) (Cert.KernelIdeal.Blocks.inWh m c) (Cert.KernelIdeal.Blocks.inBh m c),
    fun c => Cert.ReferenceIdeal.Read.val_main_v20 (F := Ideal) (Cert.KernelIdeal.Blocks.inX m c) (Cert.KernelIdeal.Blocks.inH m c) (Cert.KernelIdeal.Blocks.inWi m c) (Cert.KernelIdeal.Blocks.inBi m c) (Cert.KernelIdeal.Blocks.inWh m c) (Cert.KernelIdeal.Blocks.inBh m c),
    fun c => Cert.ReferenceIdeal.Read.val_main_v27 (F := Ideal) (Cert.KernelIdeal.Blocks.inX m c) (Cert.KernelIdeal.Blocks.inH m c) (Cert.KernelIdeal.Blocks.inWi m c) (Cert.KernelIdeal.Blocks.inBi m c) (Cert.KernelIdeal.Blocks.inWh m c) (Cert.KernelIdeal.Blocks.inBh m c),
    fun c => Cert.ReferenceIdeal.Read.val_main_v33 (F := Ideal) (Cert.KernelIdeal.Blocks.inX m c) (Cert.KernelIdeal.Blocks.inH m c) (Cert.KernelIdeal.Blocks.inWi m c) (Cert.KernelIdeal.Blocks.inBi m c) (Cert.KernelIdeal.Blocks.inWh m c) (Cert.KernelIdeal.Blocks.inBh m c),
    Cert.KernelIdeal.Final.run m ρ, ?_⟩
  refine (θ_run Cert.ReferenceIdeal.defs _ _).mono (fun _ h c => ?_) (Cert.ReferenceIdeal.Value.run (F := Ideal) m' ρ')
  obtain ⟨r0, r1, r2, r3, r4, r5, kept⟩ := h c
  obtain ⟨a0, a1, a2, a3, a4, a5, a6⟩ := hagree c
  refine ⟨r0.trans ((Cert.ReferenceIdeal.Read.val_main_v38_eq m' c).trans ?_),
    r1.trans ((Cert.ReferenceIdeal.Read.val_main_v36_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).trans ?_),
    r2.trans ((Cert.ReferenceIdeal.Read.val_main_v26_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).trans ?_),
    r3.trans ((Cert.ReferenceIdeal.Read.val_main_v20_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).trans ?_),
    r4.trans ((Cert.ReferenceIdeal.Read.val_main_v27_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).trans ?_),
    r5.trans ((Cert.ReferenceIdeal.Read.val_main_v33_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).trans ?_), kept⟩
  · rw [a0, a1, a2, a3, a4, a5, a6]
  · rw [a0, a1, a2, a3, a4, a5, a6]
  · rw [a0, a1, a3, a4, a5, a6]
  · rw [a0, a1, a3, a4, a5, a6]
  · rw [a0, a1, a3, a4, a5, a6]
  · rw [a0, a1, a3, a4, a5, a6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2.2.2.2)
    (Cert.ReferenceIdeal.Value.run (F := Ideal) m ρ),
  trivial,
  algebraic⟩

end Cert.Proof

end
